-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x128 .f32) (main_arg10 : FVec F S64x128 .f32) (main_arg11 : FVec F S64 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64x128 .f32 := Host.absf main_arg10
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S64x128 .f32) (main_arg10 : FVec F S64x128 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S600000 32) (main_arg2 : IVec S600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S64x128 .f32) (main_arg10 : FVec F S64x128 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128 : Shape := ⟨2, ![1, 128]⟩
abbrev S4000x128 : Shape := ⟨2, ![4000, 128]⟩
abbrev S4000x1 : Shape := ⟨2, ![4000, 1]⟩
abbrev S128x64 : Shape := ⟨2, ![128, 64]⟩
abbrev S1x64 : Shape := ⟨2, ![1, 64]⟩
abbrev S100000x64 : Shape := ⟨2, ![100000, 64]⟩
abbrev S4000x64 : Shape := ⟨2, ![4000, 64]⟩

abbrev nBuf : Space → Nat
  | .hbm => 75
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S64x128, .f32⟩
  | .hbm, ⟨10, _⟩ => ⟨S64x128, .f32⟩
  | .hbm, ⟨11, _⟩ => ⟨S64, .f32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S100000, .f32⟩
  | .hbm, ⟨16, _⟩ => ⟨S600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S_, .f32⟩
  | .hbm, ⟨32, _⟩ => ⟨S100000x128, .f32⟩
  | .hbm, ⟨33, _⟩ => ⟨S600000x1, .i32⟩
  | .hbm, ⟨34, _⟩ => ⟨S100000x128, .f32⟩
  | .hbm, ⟨35, _⟩ => ⟨S128x128, .f32⟩
  | .hbm, ⟨36, _⟩ => ⟨S128x128, .f32⟩
  | .hbm, ⟨37, _⟩ => ⟨S1x128, .f32⟩
  | .hbm, ⟨38, _⟩ => ⟨S100000x128, .bf16⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .bf16⟩
  | .hbm, ⟨48, _⟩ => ⟨S600000x128, .f32⟩
  | .hbm, ⟨49, _⟩ => ⟨S_, .f32⟩
  | .hbm, ⟨50, _⟩ => ⟨S100000x128, .f32⟩
  | .hbm, ⟨51, _⟩ => ⟨S600000x1, .i32⟩
  | .hbm, ⟨52, _⟩ => ⟨S100000x128, .f32⟩
  | .hbm, ⟨53, _⟩ => ⟨S128x128, .f32⟩
  | .hbm, ⟨54, _⟩ => ⟨S128x128, .f32⟩
  | .hbm, ⟨55, _⟩ => ⟨S1x128, .f32⟩
  | .hbm, ⟨56, _⟩ => ⟨S100000x128, .bf16⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S600000x128, .bf16⟩
  | .hbm, ⟨66, _⟩ => ⟨S600000x128, .f32⟩
  | .hbm, ⟨67, _⟩ => ⟨S_, .f32⟩
  | .hbm, ⟨68, _⟩ => ⟨S100000x128, .f32⟩
  | .hbm, ⟨69, _⟩ => ⟨S600000x1, .i32⟩
  | .hbm, ⟨70, _⟩ => ⟨S100000x128, .f32⟩
  | .hbm, ⟨71, _⟩ => ⟨S128x64, .f32⟩
  | .hbm, ⟨72, _⟩ => ⟨S128x64, .f32⟩
  | .hbm, ⟨73, _⟩ => ⟨S1x64, .f32⟩
  | .hbm, ⟨74, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S4000x128, .bf16⟩
  | .local _ .vmem, ⟨10, _⟩ => ⟨S4000x128, .bf16⟩
  | .local _ .vmem, ⟨11, _⟩ => ⟨S4000x128, .bf16⟩
  | .local _ .vmem, ⟨12, _⟩ => ⟨S4000x128, .bf16⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S4000x128, .bf16⟩
  | .local _ .vmem, ⟨21, _⟩ => ⟨S4000x128, .bf16⟩
  | .local _ .vmem, ⟨22, _⟩ => ⟨S4000x128, .bf16⟩
  | .local _ .vmem, ⟨23, _⟩ => ⟨S4000x128, .bf16⟩
  | .local _ .vmem, ⟨24, _⟩ => ⟨S4000x128, .f32⟩
  | .local _ .vmem, ⟨25, _⟩ => ⟨S4000x128, .f32⟩
  | .local _ .vmem, ⟨26, _⟩ => ⟨S4000x1, .f32⟩
  | .local _ .vmem, ⟨27, _⟩ => ⟨S4000x1, .f32⟩
  | .local _ .vmem, ⟨28, _⟩ => ⟨S128x64, .f32⟩
  | .local _ .vmem, ⟨29, _⟩ => ⟨S128x64, .f32⟩
  | .local _ .vmem, ⟨30, _⟩ => ⟨S1x64, .f32⟩
  | .local _ .vmem, ⟨31, _⟩ => ⟨S4000x64, .f32⟩
  | .local _ .vmem, ⟨32, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  shapeCasts_S100000_S100000x1 : S100000.ShapeCasts S100000x1
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .bf16 = 32 ∨ (Rect.block (s := S100000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .bf16 = 32 ∨ (Rect.block (s := S100000x128) S4000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .bf16 = 32 ∨ (Rect.block (s := S100000x128) S4000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x64.size a ≤ S100000x64.size a
  hwx2_6 : ∀ i : grid2.Coords, EltTy.bits .f32 = 32 ∨ (Rect.block (s := S100000x64) S4000x64.size (cc2_transform_6 i) (hinb2_6 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v35) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v47) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S4000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S64x128, .f32⟩
  | .hbm, ⟨10, _⟩ => ⟨S64x128, .f32⟩
  | .hbm, ⟨11, _⟩ => ⟨S64, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S100000, .f32⟩
  | .hbm, ⟨29, _⟩ => ⟨S600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S_, .f32⟩
  | .hbm, ⟨58, _⟩ => ⟨S100000x128, .f32⟩
  | .hbm, ⟨59, _⟩ => ⟨S600000x1, .i32⟩
  | .hbm, ⟨60, _⟩ => ⟨S100000x128, .f32⟩
  | .hbm, ⟨61, _⟩ => ⟨S_, .f32⟩
  | .hbm, ⟨62, _⟩ => ⟨S600000, .f32⟩
  | .hbm, ⟨63, _⟩ => ⟨S_, .f32⟩
  | .hbm, ⟨64, _⟩ => ⟨S100000, .f32⟩
  | .hbm, ⟨65, _⟩ => ⟨S600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S_, .i32⟩
  | .hbm, ⟨85, _⟩ => ⟨S600000, .i32⟩
  | .hbm, ⟨86, _⟩ => ⟨S600000, .i1⟩
  | .hbm, ⟨87, _⟩ => ⟨S_, .i32⟩
  | .hbm, ⟨88, _⟩ => ⟨S600000, .i32⟩
  | .hbm, ⟨89, _⟩ => ⟨S600000, .i32⟩
  | .hbm, ⟨90, _⟩ => ⟨S600000, .i32⟩
  | .hbm, ⟨91, _⟩ => ⟨S600000x1, .i32⟩
  | .hbm, ⟨92, _⟩ => ⟨S600000x128, .f32⟩
  | .hbm, ⟨93, _⟩ => ⟨S_, .f32⟩
  | .hbm, ⟨94, _⟩ => ⟨S100000x128, .f32⟩
  | .hbm, ⟨95, _⟩ => ⟨S600000x1, .i32⟩
  | .hbm, ⟨96, _⟩ => ⟨S100000x128, .f32⟩
  | .hbm, ⟨97, _⟩ => ⟨S_, .f32⟩
  | .hbm, ⟨98, _⟩ => ⟨S600000, .f32⟩
  | .hbm, ⟨99, _⟩ => ⟨S_, .f32⟩
  | .hbm, ⟨100, _⟩ => ⟨S100000, .f32⟩
  | .hbm, ⟨101, _⟩ => ⟨S600000x1, .i32⟩
  | .hbm, ⟨102, _⟩ => ⟨S100000, .f32⟩
  | .hbm, ⟨103, _⟩ => ⟨S_, .f32⟩
  | .hbm, ⟨104, _⟩ => ⟨S100000, .f32⟩
  | .hbm, ⟨105, _⟩ => ⟨S100000, .f32⟩
  | .hbm, ⟨106, _⟩ => ⟨S100000x1, .f32⟩
  | .hbm, ⟨107, _⟩ => ⟨S100000x128, .f32⟩
  | .hbm, ⟨108, _⟩ => ⟨S100000x128, .f32⟩
  | .hbm, ⟨109, _⟩ => ⟨S128x64, .f32⟩
  | .hbm, ⟨110, _⟩ => ⟨S100000x64, .f32⟩
  | .hbm, ⟨111, _⟩ => ⟨S128x64, .f32⟩
  | .hbm, ⟨112, _⟩ => ⟨S100000x64, .f32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call0_cst : Ref sig .tc := ⟨.hbm, 45, rfl⟩
abbrev main_call0_v0 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The kernel program's run with its result named.  The three pipelines and the host stretches between them run as six
  segments; at the return every unscoped buffer of a core holds the last boundary's contents `W6`: the launch memory
  pushed through the first stretch of host operations, the first pipeline's write-backs, the second stretch, and so on.
  The frame statement keeps of this only that the arguments end as launched; here the same run is stated with the
  result array as well: it ends at `W6` read at the result's buffer, which the value lemmas then open layer by layer.
-/
import proofs.«150431_j50714973831907_2_alg».proof.Proof.KernelIdealFrameP

set_option maxRecDepth 16384

noncomputable section

namespace Cert.KernelIdeal.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result array ends at the last
    boundary's contents and the argument arrays end as launched. -/
theorem run_result : θ_run defs (onTc (τ := τ) (main (F := F))) ⟨m, fun _ => 0, ρ⟩ (fun r => ∀ c : Dev nD,
      r.2.mem ((c.tc : Thread nD τ).loc main_v50) = W6 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v50 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.KRun

end
-- ==== Proof.KHost.lean ====
/-
  The host operations between the pipelines, read as pure functions of the buffers they start from.

  Before each pipeline a stretch of host operations prepares its operands from the feature array H the layer reads
  (the input x for the first layer, the previous pipeline's output afterwards):
    • the aggregate: row e of a gathered array is row src(e) of H (a negative position wrapped by the number of nodes),
      and the gathered rows are summed into the rows dst(e) names, starting from zero;
    • the clipped in-degree column (first stretch only): ones summed into the entries dst(e) names, the maximum with one,
      laid out as a column — no later operation writes it, so all three pipelines divide by the same column;
    • the two weight matrices transposed and the bias laid out as one row.
  A stretch writes only its own intermediate buffers: the arguments, the degree column and the previous pipeline's
  output pass through it unchanged.
-/
import proofs.«150431_j50714973831907_2_alg».proof.Proof.KernelIdealFrameP
import Idealize.ShloMosaic.PureOps.Ideal

set_option maxRecDepth 16384

noncomputable section

namespace Cert.KernelIdeal.KHost

open Cert.KernelIdeal Cert.KernelIdeal.Gen Cert.KernelIdeal.GenP
open Idealize.ShloMosaic Idealize.ShloMosaic.TcCoe Idealize.SL.Sem Idealize.ShloMosaic.StableHlo

/-- The gather positions: the edge sources, a negative entry wrapped by the number of nodes, as a column. -/
def srcIdx (a1 : Vec Ideal S600000 .i32) : Vec Ideal S600000x1 .i32 :=
  broadcastInDim S600000x1 ![0] bcast_S600000_S600000x1_0
    (select (cmpi .slt a1 (broadcastInDim S600000 ![] bcast_S_S600000 (constantI S_ 32 0#32)))
      (addi a1 (broadcastInDim S600000 ![] bcast_S_S600000 (constantI S_ 32 100000#32))) a1)

/-- The aggregate of an f32 feature array: its rows at the edge sources, summed into the rows the edge targets name. -/
def agg (a1 a2 : Vec Ideal S600000 .i32) (H : Vec Ideal S100000x128 .f32) : Vec Ideal S100000x128 .f32 :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 a2)
    (Host.gather gather_S100000x128_S600000x1_S600000x128_1_0_n_n_0_1_1128 H (srcIdx a1))

/-- The aggregate of a bf16 feature array: the same, the gathered rows widened to f32 first. -/
def aggB (a1 a2 : Vec Ideal S600000 .i32) (H : Vec Ideal S100000x128 .bf16) : Vec Ideal S100000x128 .f32 :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 a2)
    (extf .f32 (Host.gather gather_S100000x128_S600000x1_S600000x128_1_0_n_n_0_1_1128 H (srcIdx a1)) bitsLt_bf16_f32)

/-- The clipped in-degree as a vector: ones summed at the edge targets, at least one. -/
def degVec (a2 : Vec Ideal S600000 .i32) : Vec Ideal S100000 .f32 :=
  maximumf
    (Host.scatterAdd scatter_S100000_S600000x1_S600000_n_0_0_1
      (broadcastInDim S100000 ![] bcast_S_S100000 (constant (F := Ideal) S_ .f32 0x00000000#32))
      (broadcastInDim S600000x1 ![0] bcast_S600000_S600000x1_0 a2)
      (broadcastInDim S600000 ![] bcast_S_S600000 (constant (F := Ideal) S_ .f32 0x3F800000#32)))
    (broadcastInDim S100000 ![] bcast_S_S100000 (constant (F := Ideal) S_ .f32 0x3F800000#32))

/-- The degree vector laid out as a column. -/
def degCol (a2 : Vec Ideal S600000 .i32) : Vec Ideal S100000x1 .f32 :=
  shapeCast S100000x1 (degVec a2) shapeCasts_S100000_S100000x1

/-- A buffer no operation of a stretch writes keeps its contents. -/
macro "unwritten" h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

section Stretches

variable (W : Valuation τ sig (Elt Ideal))

/-! ## The first stretch -/

theorem s0_v16 : StableHlo.after (hostOps0 (F := Ideal)) W (Proc.devRef .tc main_v16)
    = agg (W (Proc.devRef .tc main_arg1)) (W (Proc.devRef .tc main_arg2)) (W (Proc.devRef .tc main_arg0)) := by
  after_results_simp <;> rfl

theorem s0_v6 : StableHlo.after (hostOps0 (F := Ideal)) W (Proc.devRef .tc main_v6)
    = degCol (W (Proc.devRef .tc main_arg2)) := by
  after_results <;> rfl

theorem s0_v17 : StableHlo.after (hostOps0 (F := Ideal)) W (Proc.devRef .tc main_v17)
    = transpose S128x128 [1, 0] (W (Proc.devRef .tc main_arg3)) transposes_S128x128_S128x128_1_0 := by
  after_results <;> rfl

theorem s0_v18 : StableHlo.after (hostOps0 (F := Ideal)) W (Proc.devRef .tc main_v18)
    = transpose S128x128 [1, 0] (W (Proc.devRef .tc main_arg4)) transposes_S128x128_S128x128_1_0 := by
  after_results <;> rfl

theorem s0_v19 : StableHlo.after (hostOps0 (F := Ideal)) W (Proc.devRef .tc main_v19)
    = shapeCast S1x128 (W (Proc.devRef .tc main_arg5)) shapeCasts_S128_S1x128 := by
  after_results <;> rfl

/-! ## The second stretch -/

theorem s1_v31 : StableHlo.after (hostOps1 (F := Ideal)) W (Proc.devRef .tc main_v31)
    = aggB (W (Proc.devRef .tc main_arg1)) (W (Proc.devRef .tc main_arg2)) (W (Proc.devRef .tc main_v20)) := by
  after_results <;> rfl

theorem s1_v32 : StableHlo.after (hostOps1 (F := Ideal)) W (Proc.devRef .tc main_v32)
    = transpose S128x128 [1, 0] (W (Proc.devRef .tc main_arg6)) transposes_S128x128_S128x128_1_0 := by
  after_results <;> rfl

theorem s1_v33 : StableHlo.after (hostOps1 (F := Ideal)) W (Proc.devRef .tc main_v33)
    = transpose S128x128 [1, 0] (W (Proc.devRef .tc main_arg7)) transposes_S128x128_S128x128_1_0 := by
  after_results <;> rfl

theorem s1_v34 : StableHlo.after (hostOps1 (F := Ideal)) W (Proc.devRef .tc main_v34)
    = shapeCast S1x128 (W (Proc.devRef .tc main_arg8)) shapeCasts_S128_S1x128 := by
  after_results <;> rfl

/-! ## The third stretch -/

theorem s2_v46 : StableHlo.after (hostOps2 (F := Ideal)) W (Proc.devRef .tc main_v46)
    = aggB (W (Proc.devRef .tc main_arg1)) (W (Proc.devRef .tc main_arg2)) (W (Proc.devRef .tc main_v35)) := by
  after_results <;> rfl

theorem s2_v47 : StableHlo.after (hostOps2 (F := Ideal)) W (Proc.devRef .tc main_v47)
    = transpose S128x64 [1, 0] (W (Proc.devRef .tc main_arg9)) transposes_S64x128_S128x64_1_0 := by
  after_results <;> rfl

theorem s2_v48 : StableHlo.after (hostOps2 (F := Ideal)) W (Proc.devRef .tc main_v48)
    = transpose S128x64 [1, 0] (W (Proc.devRef .tc main_arg10)) transposes_S64x128_S128x64_1_0 := by
  after_results <;> rfl

theorem s2_v49 : StableHlo.after (hostOps2 (F := Ideal)) W (Proc.devRef .tc main_v49)
    = shapeCast S1x64 (W (Proc.devRef .tc main_arg11)) shapeCasts_S64_S1x64 := by
  after_results <;> rfl

/-! ## What each stretch leaves alone -/

theorem s0_keep_arg0 : StableHlo.after (hostOps0 (F := Ideal)) W (Proc.devRef .tc main_arg0) = W (Proc.devRef .tc main_arg0) := by unwritten hostOps0
theorem s0_keep_arg1 : StableHlo.after (hostOps0 (F := Ideal)) W (Proc.devRef .tc main_arg1) = W (Proc.devRef .tc main_arg1) := by unwritten hostOps0
theorem s0_keep_arg2 : StableHlo.after (hostOps0 (F := Ideal)) W (Proc.devRef .tc main_arg2) = W (Proc.devRef .tc main_arg2) := by unwritten hostOps0
theorem s0_keep_arg6 : StableHlo.after (hostOps0 (F := Ideal)) W (Proc.devRef .tc main_arg6) = W (Proc.devRef .tc main_arg6) := by unwritten hostOps0
theorem s0_keep_arg7 : StableHlo.after (hostOps0 (F := Ideal)) W (Proc.devRef .tc main_arg7) = W (Proc.devRef .tc main_arg7) := by unwritten hostOps0
theorem s0_keep_arg8 : StableHlo.after (hostOps0 (F := Ideal)) W (Proc.devRef .tc main_arg8) = W (Proc.devRef .tc main_arg8) := by unwritten hostOps0
theorem s0_keep_arg9 : StableHlo.after (hostOps0 (F := Ideal)) W (Proc.devRef .tc main_arg9) = W (Proc.devRef .tc main_arg9) := by unwritten hostOps0
theorem s0_keep_arg10 : StableHlo.after (hostOps0 (F := Ideal)) W (Proc.devRef .tc main_arg10) = W (Proc.devRef .tc main_arg10) := by unwritten hostOps0
theorem s0_keep_arg11 : StableHlo.after (hostOps0 (F := Ideal)) W (Proc.devRef .tc main_arg11) = W (Proc.devRef .tc main_arg11) := by unwritten hostOps0

theorem s1_keep_arg1 : StableHlo.after (hostOps1 (F := Ideal)) W (Proc.devRef .tc main_arg1) = W (Proc.devRef .tc main_arg1) := by unwritten hostOps1
theorem s1_keep_arg2 : StableHlo.after (hostOps1 (F := Ideal)) W (Proc.devRef .tc main_arg2) = W (Proc.devRef .tc main_arg2) := by unwritten hostOps1
theorem s1_keep_arg9 : StableHlo.after (hostOps1 (F := Ideal)) W (Proc.devRef .tc main_arg9) = W (Proc.devRef .tc main_arg9) := by unwritten hostOps1
theorem s1_keep_arg10 : StableHlo.after (hostOps1 (F := Ideal)) W (Proc.devRef .tc main_arg10) = W (Proc.devRef .tc main_arg10) := by unwritten hostOps1
theorem s1_keep_arg11 : StableHlo.after (hostOps1 (F := Ideal)) W (Proc.devRef .tc main_arg11) = W (Proc.devRef .tc main_arg11) := by unwritten hostOps1
theorem s1_keep_v6 : StableHlo.after (hostOps1 (F := Ideal)) W (Proc.devRef .tc main_v6) = W (Proc.devRef .tc main_v6) := by unwritten hostOps1
theorem s1_keep_v20 : StableHlo.after (hostOps1 (F := Ideal)) W (Proc.devRef .tc main_v20) = W (Proc.devRef .tc main_v20) := by unwritten hostOps1

theorem s2_keep_v6 : StableHlo.after (hostOps2 (F := Ideal)) W (Proc.devRef .tc main_v6) = W (Proc.devRef .tc main_v6) := by unwritten hostOps2
theorem s2_keep_v35 : StableHlo.after (hostOps2 (F := Ideal)) W (Proc.devRef .tc main_v35) = W (Proc.devRef .tc main_v35) := by unwritten hostOps2

end Stretches

end Cert.KernelIdeal.KHost

end
-- ==== Proof.Spec.lean ====
/-
  One graph-convolution layer as a function of whole arrays, entry by entry (generic extents).

  For node features h (n rows, k columns), unscaled neighbour sums g of the same shape, a column dg of n
  divisors (the clipped in-degrees), two k×d weight matrices A (self) and B (neighbour) and a bias row b,
  entry (p, q) of the layer is
      Σ_c h(p,c)·A(c,q)  +  Σ_c (g(p,c) / dg(p))·B(c,q)  +  b(q),
  optionally followed by the rectifier max(·, 0).  The quotient is taken entry by entry BEFORE the product, on
  both sides, so no law of the extended reals beyond the definition is used.
  An entry reads row p of h, g and dg only: a block of rows computes the same entries as the whole arrays.
  The network is three such layers, each fed the previous layer's output and its aggregate.
-/
import Idealize.ShloMosaic.Lib.ValueIdx
import Idealize.ShloMosaic.PureOps.Ideal

noncomputable section

namespace Cert.Sage

open Idealize.ShloMosaic Idealize.ShloMosaic.ValueIdx
open scoped BigOperators

/-- An n×k array of extended reals, indexed as the library indexes a rank-2 shape. -/
abbrev Arr (n k : Nat) : Type := (⟨2, ![n, k]⟩ : Shape).Idx → EReal

variable {n m k d : Nat}

/-- Entry (p, q) of a layer before the rectifier. -/
def entry (h g : Arr n k) (dg : Arr n 1) (A B : Arr k d) (b : Arr 1 d) (p : Fin n) (q : Fin d) : EReal :=
  ((∑ c : Fin k, h (ix2 p c) * A (ix2 c q))
    + ∑ c : Fin k, Ideal.div (g (ix2 p c)) (dg (ix2 p (0 : Fin 1))) * B (ix2 c q))
    + b (ix2 (0 : Fin 1) q)

/-- The rectifier max(x, 0), or nothing. The zero is kept as the f32 word both programs print. -/
def act (relu : Bool) (x : EReal) : EReal :=
  if relu then max x (Ideal.ofBits .f32 0x00000000#32) else x

/-- The layer as one whole-array function. -/
def layer (relu : Bool) (h g : Arr n k) (dg : Arr n 1) (A B : Arr k d) (b : Arr 1 d) : Arr n d :=
  fun i => act relu (entry h g dg A B b (i 0) (i 1))

theorem layer_apply (relu : Bool) (h g : Arr n k) (dg : Arr n 1) (A B : Arr k d) (b : Arr 1 d)
    (p : Fin n) (q : Fin d) :
    layer relu h g dg A B b (ix2 p q) = act relu (entry h g dg A B b p q) := rfl

/-- An entry reads row p of the features, of the sums and of the divisors: arrays that agree on that row
    (a block of rows against the whole array) give the same entry. -/
theorem entry_congr (h g : Arr n k) (dg : Arr n 1) (h' g' : Arr m k) (dg' : Arr m 1) (A B : Arr k d) (b : Arr 1 d)
    (p : Fin n) (p' : Fin m) (q : Fin d)
    (eh : ∀ c : Fin k, h' (ix2 p' c) = h (ix2 p c)) (eg : ∀ c : Fin k, g' (ix2 p' c) = g (ix2 p c))
    (ed : dg' (ix2 p' (0 : Fin 1)) = dg (ix2 p (0 : Fin 1))) :
    entry h' g' dg' A B b p' q = entry h g dg A B b p q := by
  unfold entry
  rw [ed]
  congr 1
  congr 1
  · exact Finset.sum_congr rfl fun c _ => by rw [eh c]
  · exact Finset.sum_congr rfl fun c _ => by rw [eg c]

/-- Three layers: the first two rectified, each later layer fed the previous output and its aggregate
    `agg` (the same aggregation of a feature array for every layer), all dividing by the same column. -/
def net (agg : Arr n k → Arr n k) (dg : Arr n 1) (x : Arr n k)
    (A1 B1 : Arr k k) (b1 : Arr 1 k) (A2 B2 : Arr k k) (b2 : Arr 1 k) (A3 B3 : Arr k d) (b3 : Arr 1 d) : Arr n d :=
  let h1 := layer true x (agg x) dg A1 B1 b1
  let h2 := layer true h1 (agg h1) dg A2 B2 b2
  layer false h2 (agg h2) dg A3 B3 b3

end Cert.Sage
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.LayerBody.lean ====
/-
  One dense step of the graph convolution, as the vector operations spell it on a block of rows, read at an entry.

  A block holds m rows. The step multiplies the block of features h (m×k, already in the narrow format) by the self
  weights A (k×d), multiplies the block of neighbour sums g (m×k), divided row by row by the block's column of
  divisors dg (m×1, spread over the k feature columns), by the neighbour weights B (k×d), adds the two products and
  adds the bias row b (1×d, spread over the m rows). Both products start from a zero accumulator. At the ideal values
  the narrowing conversions and the casts of a shape to itself change nothing, a product into a zero accumulator is a
  plain sum over the contracted coordinate, and the two spreads read the column at the entry's row and the row at the
  entry's column. So entry (p, q) of the step is
      Σ_c h(p,c)·A(c,q) + Σ_c (g(p,c) / dg(p))·B(c,q) + b(q),
  the specification's entry: it reads row p of the block and nothing else of it.

  The three kernel bodies are this step at m = 4000 rows, k = 128 feature columns: the first narrows its features
  itself and rectifies, the second receives narrow features and rectifies, the third receives narrow features, has
  d = 64 output columns and neither rectifies nor narrows its result.
-/
import Idealize.ShloMosaic.Lib.ValueIdx
import Idealize.ShloMosaic.Lib.Pipeline.Value
import Idealize.ShloMosaic.Lib.ValueLayout
import Idealize.ShloMosaic.PureOps.Ideal.Laws
import proofs.«150431_j50714973831907_2_alg».proof.Proof.Spec
import proofs.«150431_j50714973831907_2_alg».proof.Proof.LibDot
import proofs.«150431_j50714973831907_2_alg».proof.Proof.LibKeepdims
import proofs.«150431_j50714973831907_2_alg».proof.Proof.Gen.KernelIdeal.Skeleton

noncomputable section

namespace Cert.LayerBody

open Idealize.ShloMosaic Idealize.ShloMosaic.ValueIdx
open scoped BigOperators

variable {m k d : Nat} {φh : FTy}

/-- The rectifier, switched on: the larger of the value and the zero word. -/
theorem act_true (x : EReal) : Sage.act true x = max x (Ideal.ofBits .f32 0x00000000#32) := rfl

/-- The rectifier, switched off. -/
theorem act_false (x : EReal) : Sage.act false x = x := rfl

/-- The step before the rectifier, operation by operation: the two products into zero accumulators, their sum, the
    bias row spread over the rows. The features come in already narrow; the sums are divided by the spread column and
    narrowed; both weight matrices are narrowed. -/
def preact (w : DotDims.WF ⟨2, ![m, k]⟩ ⟨2, ![k, d]⟩ ⟨2, ![m, d]⟩ [1] [0] [0] [1] [] [])
    (h : FVec Ideal ⟨2, ![m, k]⟩ φh) (g : FVec Ideal ⟨2, ![m, k]⟩ .f32) (dg : FVec Ideal ⟨2, ![m, 1]⟩ .f32)
    (A B : FVec Ideal ⟨2, ![k, d]⟩ .f32) (b : FVec Ideal ⟨2, ![1, d]⟩ .f32)
    (cg : (⟨2, ![m, k]⟩ : Shape).ShapeCasts ⟨2, ![m, k]⟩) (cd : (⟨2, ![m, 1]⟩ : Shape).ShapeCasts ⟨2, ![m, 1]⟩)
    (cw : (⟨2, ![k, d]⟩ : Shape).ShapeCasts ⟨2, ![k, d]⟩) (cb : (⟨2, ![1, d]⟩ : Shape).ShapeCasts ⟨2, ![1, d]⟩)
    (bd : (⟨2, ![m, 1]⟩ : Shape).Broadcasts ⟨2, ![m, k]⟩) (bb : (⟨2, ![1, d]⟩ : Shape).Broadcasts ⟨2, ![m, d]⟩)
    (lt : FTy.bits .bf16 < FTy.bits .f32) : FVec Ideal ⟨2, ![m, d]⟩ .f32 :=
  addf (addf
      (matmul (LibDot.dims w) none h (truncf .bf16 (shapeCast ⟨2, ![k, d]⟩ A cw) lt)
        (constant ⟨2, ![m, d]⟩ .f32 0x00000000#32))
      (matmul (LibDot.dims w) none
        (truncf .bf16 (divf (shapeCast ⟨2, ![m, k]⟩ g cg) (broadcastTo ⟨2, ![m, k]⟩ (shapeCast ⟨2, ![m, 1]⟩ dg cd) bd)) lt)
        (truncf .bf16 (shapeCast ⟨2, ![k, d]⟩ B cw) lt)
        (constant ⟨2, ![m, d]⟩ .f32 0x00000000#32)))
    (broadcastTo ⟨2, ![m, d]⟩ (shapeCast ⟨2, ![1, d]⟩ b cb) bb)

/-- Entry (p, q) of the step before the rectifier is the specification's entry of the block. -/
theorem preact_apply (w : DotDims.WF ⟨2, ![m, k]⟩ ⟨2, ![k, d]⟩ ⟨2, ![m, d]⟩ [1] [0] [0] [1] [] [])
    (h : FVec Ideal ⟨2, ![m, k]⟩ φh) (g : FVec Ideal ⟨2, ![m, k]⟩ .f32) (dg : FVec Ideal ⟨2, ![m, 1]⟩ .f32)
    (A B : FVec Ideal ⟨2, ![k, d]⟩ .f32) (b : FVec Ideal ⟨2, ![1, d]⟩ .f32)
    (cg : (⟨2, ![m, k]⟩ : Shape).ShapeCasts ⟨2, ![m, k]⟩) (cd : (⟨2, ![m, 1]⟩ : Shape).ShapeCasts ⟨2, ![m, 1]⟩)
    (cw : (⟨2, ![k, d]⟩ : Shape).ShapeCasts ⟨2, ![k, d]⟩) (cb : (⟨2, ![1, d]⟩ : Shape).ShapeCasts ⟨2, ![1, d]⟩)
    (bd : (⟨2, ![m, 1]⟩ : Shape).Broadcasts ⟨2, ![m, k]⟩) (bb : (⟨2, ![1, d]⟩ : Shape).Broadcasts ⟨2, ![m, d]⟩)
    (lt : FTy.bits .bf16 < FTy.bits .f32) (p : Fin m) (q : Fin d) :
    preact w h g dg A B b cg cd cw cb bd bb lt (ix2 p q) = Sage.entry h g dg A B b p q := by
  unfold preact
  simp only [shapeCast_self]
  show (matmul (LibDot.dims w) none h (truncf .bf16 A lt) (constant ⟨2, ![m, d]⟩ .f32 0x00000000#32) (ix2 p q)
      + matmul (LibDot.dims w) none (truncf .bf16 (divf g (broadcastTo ⟨2, ![m, k]⟩ dg bd)) lt) (truncf .bf16 B lt)
          (constant ⟨2, ![m, d]⟩ .f32 0x00000000#32) (ix2 p q))
      + broadcastTo ⟨2, ![m, d]⟩ b bb (ix2 p q) = _
  rw [LibDot.matmul_zero_apply, LibDot.matmul_zero_apply, broadcastTo_1b_ab_apply]
  unfold Sage.entry
  refine congrArg₂ (· + ·) (congrArg₂ (· + ·) rfl (Finset.sum_congr rfl fun c _ => ?_)) rfl
  show Ideal.div (g (ix2 p c)) (broadcastTo ⟨2, ![m, k]⟩ dg bd (ix2 p c)) * B (ix2 c q) = _
  rw [broadcastTo_a1_ab_apply]

/-- The rectified, narrowed step at (p, q): the larger of the entry and zero. -/
theorem rectified_apply (w : DotDims.WF ⟨2, ![m, k]⟩ ⟨2, ![k, d]⟩ ⟨2, ![m, d]⟩ [1] [0] [0] [1] [] [])
    (h : FVec Ideal ⟨2, ![m, k]⟩ φh) (g : FVec Ideal ⟨2, ![m, k]⟩ .f32) (dg : FVec Ideal ⟨2, ![m, 1]⟩ .f32)
    (A B : FVec Ideal ⟨2, ![k, d]⟩ .f32) (b : FVec Ideal ⟨2, ![1, d]⟩ .f32)
    (cg : (⟨2, ![m, k]⟩ : Shape).ShapeCasts ⟨2, ![m, k]⟩) (cd : (⟨2, ![m, 1]⟩ : Shape).ShapeCasts ⟨2, ![m, 1]⟩)
    (cw : (⟨2, ![k, d]⟩ : Shape).ShapeCasts ⟨2, ![k, d]⟩) (cb : (⟨2, ![1, d]⟩ : Shape).ShapeCasts ⟨2, ![1, d]⟩)
    (bd : (⟨2, ![m, 1]⟩ : Shape).Broadcasts ⟨2, ![m, k]⟩) (bb : (⟨2, ![1, d]⟩ : Shape).Broadcasts ⟨2, ![m, d]⟩)
    (lt : FTy.bits .bf16 < FTy.bits .f32) (p : Fin m) (q : Fin d) :
    truncf .bf16 (maximumf (preact w h g dg A B b cg cd cw cb bd bb lt)
        (broadcast ⟨2, ![m, d]⟩ (Scalar.ofBits (F := Ideal) .f32 0x00000000#32))) lt (ix2 p q)
      = Sage.act true (Sage.entry h g dg A B b p q) :=
  (congrArg (fun x => max x (Ideal.ofBits .f32 0x00000000#32)) (preact_apply w h g dg A B b cg cd cw cb bd bb lt p q)).trans
    (act_true _).symm

end Cert.LayerBody

end

noncomputable section

namespace Cert.KernelIdeal.LayerBody

open Cert.KernelIdeal Cert.KernelIdeal.Gen Idealize.ShloMosaic Idealize.ShloMosaic.ValueIdx

/-- Region 0's block of the output at (p, q): the rectified entry of the block's rows. -/
theorem pay0_apply (x0 : Vec Ideal S4000x128 .f32) (x1 : Vec Ideal S4000x128 .f32) (x2 : Vec Ideal S4000x1 .f32)
    (x3 x4 : Vec Ideal S128x128 .f32) (x5 : Vec Ideal S1x128 .f32) (p : Fin 4000) (q : Fin 128) :
    Gen.k0_pay1 (F := Ideal) x0 x1 x2 x3 x4 x5 (ix2 p q) = Sage.act true (Sage.entry x0 x1 x2 x3 x4 x5 p q) := by
  unfold Gen.k0_pay1
  exact Cert.LayerBody.rectified_apply dot_S4000x128_S128x128_S4000x128_1_0_0_1_n_n.wf
    (truncf .bf16 x0 bitsLt_bf16_f32) x1 x2 x3 x4 x5 _ _ _ _ _ _ _ p q

/-- Region 1's: the same step on features that arrive narrow. -/
theorem pay1_apply (x0 : Vec Ideal S4000x128 .bf16) (x1 : Vec Ideal S4000x128 .f32) (x2 : Vec Ideal S4000x1 .f32)
    (x3 x4 : Vec Ideal S128x128 .f32) (x5 : Vec Ideal S1x128 .f32) (p : Fin 4000) (q : Fin 128) :
    Gen.k1_pay1 (F := Ideal) x0 x1 x2 x3 x4 x5 (ix2 p q) = Sage.act true (Sage.entry x0 x1 x2 x3 x4 x5 p q) := by
  unfold Gen.k1_pay1
  refine (Cert.LayerBody.rectified_apply dot_S4000x128_S128x128_S4000x128_1_0_0_1_n_n.wf
    (shapeCast S4000x128 x0 shapeCasts_S4000x128_S4000x128) x1 x2 x3 x4 x5 _ _ _ _ _ _ _ p q).trans ?_
  rw [shapeCast_self]

/-- Region 2's: 64 output columns, no rectifier, no narrowing of the result. -/
theorem pay2_apply (x0 : Vec Ideal S4000x128 .bf16) (x1 : Vec Ideal S4000x128 .f32) (x2 : Vec Ideal S4000x1 .f32)
    (x3 x4 : Vec Ideal S128x64 .f32) (x5 : Vec Ideal S1x64 .f32) (p : Fin 4000) (q : Fin 64) :
    Gen.k2_pay1 (F := Ideal) x0 x1 x2 x3 x4 x5 (ix2 p q) = Sage.act false (Sage.entry x0 x1 x2 x3 x4 x5 p q) := by
  unfold Gen.k2_pay1
  refine (Cert.LayerBody.preact_apply dot_S4000x128_S128x64_S4000x64_1_0_0_1_n_n.wf
    (shapeCast S4000x128 x0 shapeCasts_S4000x128_S4000x128) x1 x2 x3 x4 x5 _ _ _ _ _ _ _ p q).trans ?_
  rw [shapeCast_self]
  rfl

end Cert.KernelIdeal.LayerBody

end
-- ==== Proof.RegionValue.lean ====
/-
  The three dense regions' outputs as whole-array functions of the arrays each region finds at entry.

  A region walks 25 grid points. At point t it holds rows 4000·t … 4000·t + 3999 of the node features, of the
  unscaled neighbour sums and of the column of divisors, together with the two weight matrices and the bias row whole,
  and writes back rows 4000·t … 4000·t + 3999 of its output. Entry (p, q) of what point t computes is the layer's entry
  of the block's row p; since an entry reads only its own row of the features, of the sums and of the divisors, and
  row p of block t is row 4000·t + p of the array, this is entry (4000·t + p, q) of the layer of the whole arrays. Every
  row r of the output lies in the block of point r / 4000 and every point writes its block back, so the output array
  ends as the layer of the whole arrays: rectified in the first two regions, plain in the third, whose output has 64
  columns.
-/
import proofs.«150431_j50714973831907_2_alg».proof.Proof.KernelIdealFrameP
import proofs.«150431_j50714973831907_2_alg».proof.Proof.Spec
import proofs.«150431_j50714973831907_2_alg».proof.Proof.LibDot
import proofs.«150431_j50714973831907_2_alg».proof.Proof.LayerBody
import Idealize.ShloMosaic.Lib.Pipeline.Value
import Idealize.ShloMosaic.Lib.ValueIdx

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.ValueIdx

variable (V : (c : Dev nD) → (b : Ref sig .tc) → Buf (Elt Ideal) ((c : Thread nD τ).loc b))

/-- The printed zero offsets of a whole-block access are the zero function. -/
theorem zero_offsets : (![0, 0] : Fin 2 → Nat) = fun _ => 0 := funext fun a => by fin_cases a <;> rfl

/-! ## Region 0: rows 4000·t … 4000·t + 3999 at grid point t -/

/-- The block each window is at, at grid point t, decided over the 25 points: the features, the neighbour sums, the
    divisors and the output are at row block t; the two weight matrices and the bias row are single blocks. -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of point t's block of the features is row 4000·t + p of the array. -/
theorem rows0_0 (c : Dev nD) (t : Fin cfg0.N) (p : Fin 4000) (r : Fin 100000) (hr : r.val = 4000 * t.val + p.val) (k : Fin 128) :
    (GenP.iblk0 V c 0 t : Vec Ideal S4000x128 .f32) (ix2 p k) = (V c main_arg0 : S100000x128.Idx → EReal) (ix2 r k) := by
  obtain ⟨e0, e1, -⟩ := block_index0 t
  unfold GenP.iblk0
  rw [View.read_apply]
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 4000 + 1 * p.val = r.val; omega
  | ⟨1, _⟩ => show win0_0.index t (1 : Fin 2) * 128 + 1 * k.val = k.val; omega

/-- Row p of point t's block of the neighbour sums is row 4000·t + p of the array. -/
theorem rows0_1 (c : Dev nD) (t : Fin cfg0.N) (p : Fin 4000) (r : Fin 100000) (hr : r.val = 4000 * t.val + p.val) (k : Fin 128) :
    (GenP.iblk0 V c 1 t : Vec Ideal S4000x128 .f32) (ix2 p k) = (V c main_v16 : S100000x128.Idx → EReal) (ix2 r k) := by
  obtain ⟨-, -, e0, e1, -⟩ := block_index0 t
  unfold GenP.iblk0
  rw [View.read_apply]
  show V c main_v16 (((cfg0.win 1).blk t).view.emb (ix2 p k)) = V c main_v16 (ix2 r k)
  refine congrArg (V c main_v16) (funext fun a => Fin.ext ?_)
  match a with
  | ⟨0, _⟩ => show win0_1.index t (0 : Fin 2) * 4000 + 1 * p.val = r.val; omega
  | ⟨1, _⟩ => show win0_1.index t (1 : Fin 2) * 128 + 1 * k.val = k.val; omega

/-- Row p of point t's block of the divisors is row 4000·t + p of the array. -/
theorem rows0_2 (c : Dev nD) (t : Fin cfg0.N) (p : Fin 4000) (r : Fin 100000) (hr : r.val = 4000 * t.val + p.val) (k : Fin 1) :
    (GenP.iblk0 V c 2 t : Vec Ideal S4000x1 .f32) (ix2 p k) = (V c main_v6 : S100000x1.Idx → EReal) (ix2 r k) := by
  obtain ⟨-, -, -, -, e0, e1, -⟩ := block_index0 t
  unfold GenP.iblk0
  rw [View.read_apply]
  show V c main_v6 (((cfg0.win 2).blk t).view.emb (ix2 p k)) = V c main_v6 (ix2 r k)
  refine congrArg (V c main_v6) (funext fun a => Fin.ext ?_)
  match a with
  | ⟨0, _⟩ => show win0_2.index t (0 : Fin 2) * 4000 + 1 * p.val = r.val; omega
  | ⟨1, _⟩ => show win0_2.index t (1 : Fin 2) * 1 + 1 * k.val = k.val; omega

/-- Every point's block of the self weights is the whole array: its one block sits at block index (0, 0). -/
theorem whole0_3 (c : Dev nD) (t : Fin cfg0.N) :
    (GenP.iblk0 V c 3 t : Vec Ideal S128x128 .f32) = (V c main_v17 : S128x128.Idx → EReal) := by
  obtain ⟨-, -, -, -, -, -, e0, e1, -⟩ := block_index0 t
  funext y
  unfold GenP.iblk0
  rw [View.read_apply]
  show V c main_v17 (((cfg0.win 3).blk t).view.emb y) = V c main_v17 y
  refine congrArg (V c main_v17) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Every point's block of the neighbour weights is the whole array: its one block sits at block index (0, 0). -/
theorem whole0_4 (c : Dev nD) (t : Fin cfg0.N) :
    (GenP.iblk0 V c 4 t : Vec Ideal S128x128 .f32) = (V c main_v18 : S128x128.Idx → EReal) := by
  obtain ⟨-, -, -, -, -, -, -, -, e0, e1, -⟩ := block_index0 t
  funext y
  unfold GenP.iblk0
  rw [View.read_apply]
  show V c main_v18 (((cfg0.win 4).blk t).view.emb y) = V c main_v18 y
  refine congrArg (V c main_v18) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Every point's block of the bias row is the whole array: its one block sits at block index (0, 0). -/
theorem whole0_5 (c : Dev nD) (t : Fin cfg0.N) :
    (GenP.iblk0 V c 5 t : Vec Ideal S1x128 .f32) = (V c main_v19 : S1x128.Idx → EReal) := by
  obtain ⟨-, -, -, -, -, -, -, -, -, -, e0, e1, -⟩ := block_index0 t
  funext y
  unfold GenP.iblk0
  rw [View.read_apply]
  show V c main_v19 (((cfg0.win 5).blk t).view.emb y) = V c main_v19 y
  refine congrArg (V c main_v19) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Entry (p, q) of what point t computes is entry (4000·t + p, q) of the layer of the whole arrays: the entry reads
    row p of the three row blocks, which is row 4000·t + p of their arrays, and the weights and the bias whole. -/
theorem block_value0 (c : Dev nD) (t : Fin cfg0.N) (p : Fin 4000) (q : Fin 128) (r : Fin 100000) (hr : r.val = 4000 * t.val + p.val) :
    Gen.k0_pay1 (F := Ideal) (GenP.iblk0 V c 0 t) (GenP.iblk0 V c 1 t) (GenP.iblk0 V c 2 t) (GenP.iblk0 V c 3 t) (GenP.iblk0 V c 4 t) (GenP.iblk0 V c 5 t) (ix2 p q)
      = Sage.layer true (V c main_arg0) (V c main_v16) (V c main_v6) (V c main_v17) (V c main_v18) (V c main_v19) (ix2 r q) := by
  refine (LayerBody.pay0_apply (GenP.iblk0 V c 0 t) (GenP.iblk0 V c 1 t) (GenP.iblk0 V c 2 t) (GenP.iblk0 V c 3 t) (GenP.iblk0 V c 4 t) (GenP.iblk0 V c 5 t) p q).trans ?_
  rw [whole0_3 V c t, whole0_4 V c t, whole0_5 V c t, Sage.layer_apply]
  refine congrArg (Sage.act true) ?_
  exact Sage.entry_congr (V c main_arg0) (V c main_v16) (V c main_v6) (GenP.iblk0 V c 0 t) (GenP.iblk0 V c 1 t) (GenP.iblk0 V c 2 t)
    (V c main_v17) (V c main_v18) (V c main_v19) r p q
    (fun k => rows0_0 V c t p r hr k) (fun k => rows0_1 V c t p r hr k) (rows0_2 V c t p r hr 0)

/-- What point t writes back is block t of the layer of the whole arrays. -/
theorem flushed0 (c : Dev nD) (t : Fin cfg0.N) :
    (GenP.dat0 (F := Ideal) V c).flushed 6 t = ((cfg0.win 6).blk t).view.read (Elt Ideal)
      (Sage.layer true (V c main_arg0) (V c main_v16) (V c main_v6) (V c main_v17) (V c main_v18) (V c main_v19)) := by
  show (cfg0.win 6).cut (grid0.coords t) ((GenP.dat0 V c).after 6 t) = _
  rw [GenP.after0_6]
  unfold GenP.out0_6
  rw [View.canon_unit_zero zero_offsets]
  simp only [View.ld_unit_zero (S := S4000x128) zero_offsets, View.ld_unit_zero (S := S4000x1) zero_offsets, View.ld_unit_zero (S := S128x128) zero_offsets, View.ld_unit_zero (S := S1x128) zero_offsets]
  funext j
  obtain ⟨-, -, -, -, -, -, -, -, -, -, -, -, e0, e1⟩ := block_index0 t
  have ht : t.val < 25 := t.isLt
  have hp : (j 0).val < 4000 := (j 0).isLt
  have hq : (j 1).val < 128 := (j 1).isLt
  have hj : (cfg0.win 6).xinj (grid0.coords t) j = (ix2 (⟨(j 0).val, hp⟩ : Fin 4000) (⟨(j 1).val, hq⟩ : Fin 128) : S4000x128.Idx) := by
    funext a; match a with | ⟨0, _⟩ => rfl | ⟨1, _⟩ => rfl
  have hi : ((cfg0.win 6).blk t).view.emb j
      = (ix2 (⟨4000 * t.val + (j 0).val, by omega⟩ : Fin 100000) (⟨(j 1).val, hq⟩ : Fin 128) : S100000x128.Idx) := by
    funext a; apply Fin.ext
    match a with
    | ⟨0, _⟩ => show win0_6.index t (0 : Fin 2) * 4000 + 1 * (j 0).val = 4000 * t.val + (j 0).val; omega
    | ⟨1, _⟩ => show win0_6.index t (1 : Fin 2) * 128 + 1 * (j 1).val = (j 1).val; omega
  show Gen.k0_pay1 (F := Ideal) (GenP.iblk0 V c 0 t) (GenP.iblk0 V c 1 t) (GenP.iblk0 V c 2 t) (GenP.iblk0 V c 3 t) (GenP.iblk0 V c 4 t) (GenP.iblk0 V c 5 t) ((cfg0.win 6).xinj (grid0.coords t) j)
      = Sage.layer true (V c main_arg0) (V c main_v16) (V c main_v6) (V c main_v17) (V c main_v18) (V c main_v19) (((cfg0.win 6).blk t).view.emb j)
  rw [hj, hi]
  exact block_value0 V c t _ _ _ rfl

/-- An index of the output array is in point t's block iff each coordinate is in the block's range on its axis. -/
theorem mem_block0 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v20).slice (win0_6.rect t)).set ↔ _
  rw [View.set_slice_whole, Rect.mem_set_unit]
  exact Iff.rfl

/-- Every row r of the output lies in the block of point r / 4000, and every point writes its block back. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have ht : (i 0).val / 4000 < 25 := by omega
  refine ⟨⟨(i 0).val / 4000, ht⟩, Gen.flush0_6 _, ?_⟩
  obtain ⟨-, -, -, -, -, -, -, -, -, -, -, -, e0, e1⟩ := block_index0 ⟨(i 0).val / 4000, ht⟩
  have e0' : win0_6.index ⟨(i 0).val / 4000, ht⟩ (0 : Fin 2) = (i 0).val / 4000 := e0
  rw [mem_block0]
  intro a
  match a with
  | ⟨0, _⟩ =>
    show win0_6.index ⟨(i 0).val / 4000, ht⟩ (0 : Fin 2) * 4000 ≤ (i 0).val
      ∧ (i 0).val < win0_6.index ⟨(i 0).val / 4000, ht⟩ (0 : Fin 2) * 4000 + 4000
    omega
  | ⟨1, _⟩ =>
    show win0_6.index ⟨(i 0).val / 4000, ht⟩ (1 : Fin 2) * 128 ≤ (i 1).val
      ∧ (i 1).val < win0_6.index ⟨(i 0).val / 4000, ht⟩ (1 : Fin 2) * 128 + 128
    omega

/-- The output array after region 0: the layer of the arrays the region finds at entry. -/
theorem final0 (c : Dev nD) : (GenP.dat0 (F := Ideal) V c).arrAt 6 cfg0.N
      = Cert.Sage.layer true (V c main_arg0) (V c main_v16) (V c main_v6) (V c main_v17) (V c main_v18) (V c main_v19) :=
  (GenP.dat0 V c).arrAt_eq_of_cover 6 _ (fun t _ => flushed0 V c t) cover0

/-! ## Region 1: rows 4000·t … 4000·t + 3999 at grid point t -/

/-- The block each window is at, at grid point t, decided over the 25 points: the features, the neighbour sums, the
    divisors and the output are at row block t; the two weight matrices and the bias row are single blocks. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of point t's block of the features is row 4000·t + p of the array. -/
theorem rows1_0 (c : Dev nD) (t : Fin cfg1.N) (p : Fin 4000) (r : Fin 100000) (hr : r.val = 4000 * t.val + p.val) (k : Fin 128) :
    (GenP.iblk1 V c 0 t : Vec Ideal S4000x128 .bf16) (ix2 p k) = (V c main_v20 : S100000x128.Idx → EReal) (ix2 r k) := by
  obtain ⟨e0, e1, -⟩ := block_index1 t
  unfold GenP.iblk1
  rw [View.read_apply]
  show V c main_v20 (((cfg1.win 0).blk t).view.emb (ix2 p k)) = V c main_v20 (ix2 r k)
  refine congrArg (V c main_v20) (funext fun a => Fin.ext ?_)
  match a with
  | ⟨0, _⟩ => show win1_0.index t (0 : Fin 2) * 4000 + 1 * p.val = r.val; omega
  | ⟨1, _⟩ => show win1_0.index t (1 : Fin 2) * 128 + 1 * k.val = k.val; omega

/-- Row p of point t's block of the neighbour sums is row 4000·t + p of the array. -/
theorem rows1_1 (c : Dev nD) (t : Fin cfg1.N) (p : Fin 4000) (r : Fin 100000) (hr : r.val = 4000 * t.val + p.val) (k : Fin 128) :
    (GenP.iblk1 V c 1 t : Vec Ideal S4000x128 .f32) (ix2 p k) = (V c main_v31 : S100000x128.Idx → EReal) (ix2 r k) := by
  obtain ⟨-, -, e0, e1, -⟩ := block_index1 t
  unfold GenP.iblk1
  rw [View.read_apply]
  show V c main_v31 (((cfg1.win 1).blk t).view.emb (ix2 p k)) = V c main_v31 (ix2 r k)
  refine congrArg (V c main_v31) (funext fun a => Fin.ext ?_)
  match a with
  | ⟨0, _⟩ => show win1_1.index t (0 : Fin 2) * 4000 + 1 * p.val = r.val; omega
  | ⟨1, _⟩ => show win1_1.index t (1 : Fin 2) * 128 + 1 * k.val = k.val; omega

/-- Row p of point t's block of the divisors is row 4000·t + p of the array. -/
theorem rows1_2 (c : Dev nD) (t : Fin cfg1.N) (p : Fin 4000) (r : Fin 100000) (hr : r.val = 4000 * t.val + p.val) (k : Fin 1) :
    (GenP.iblk1 V c 2 t : Vec Ideal S4000x1 .f32) (ix2 p k) = (V c main_v6 : S100000x1.Idx → EReal) (ix2 r k) := by
  obtain ⟨-, -, -, -, e0, e1, -⟩ := block_index1 t
  unfold GenP.iblk1
  rw [View.read_apply]
  show V c main_v6 (((cfg1.win 2).blk t).view.emb (ix2 p k)) = V c main_v6 (ix2 r k)
  refine congrArg (V c main_v6) (funext fun a => Fin.ext ?_)
  match a with
  | ⟨0, _⟩ => show win1_2.index t (0 : Fin 2) * 4000 + 1 * p.val = r.val; omega
  | ⟨1, _⟩ => show win1_2.index t (1 : Fin 2) * 1 + 1 * k.val = k.val; omega

/-- Every point's block of the self weights is the whole array: its one block sits at block index (0, 0). -/
theorem whole1_3 (c : Dev nD) (t : Fin cfg1.N) :
    (GenP.iblk1 V c 3 t : Vec Ideal S128x128 .f32) = (V c main_v32 : S128x128.Idx → EReal) := by
  obtain ⟨-, -, -, -, -, -, e0, e1, -⟩ := block_index1 t
  funext y
  unfold GenP.iblk1
  rw [View.read_apply]
  show V c main_v32 (((cfg1.win 3).blk t).view.emb y) = V c main_v32 y
  refine congrArg (V c main_v32) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Every point's block of the neighbour weights is the whole array: its one block sits at block index (0, 0). -/
theorem whole1_4 (c : Dev nD) (t : Fin cfg1.N) :
    (GenP.iblk1 V c 4 t : Vec Ideal S128x128 .f32) = (V c main_v33 : S128x128.Idx → EReal) := by
  obtain ⟨-, -, -, -, -, -, -, -, e0, e1, -⟩ := block_index1 t
  funext y
  unfold GenP.iblk1
  rw [View.read_apply]
  show V c main_v33 (((cfg1.win 4).blk t).view.emb y) = V c main_v33 y
  refine congrArg (V c main_v33) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Every point's block of the bias row is the whole array: its one block sits at block index (0, 0). -/
theorem whole1_5 (c : Dev nD) (t : Fin cfg1.N) :
    (GenP.iblk1 V c 5 t : Vec Ideal S1x128 .f32) = (V c main_v34 : S1x128.Idx → EReal) := by
  obtain ⟨-, -, -, -, -, -, -, -, -, -, e0, e1, -⟩ := block_index1 t
  funext y
  unfold GenP.iblk1
  rw [View.read_apply]
  show V c main_v34 (((cfg1.win 5).blk t).view.emb y) = V c main_v34 y
  refine congrArg (V c main_v34) (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Entry (p, q) of what point t computes is entry (4000·t + p, q) of the layer of the whole arrays: the entry reads
    row p of the three row blocks, which is row 4000·t + p of their arrays, and the weights and the bias whole. -/
theorem block_value1 (c : Dev nD) (t : Fin cfg1.N) (p : Fin 4000) (q : Fin 128) (r : Fin 100000) (hr : r.val = 4000 * t.val + p.val) :
    Gen.k1_pay1 (F := Ideal) (GenP.iblk1 V c 0 t) (GenP.iblk1 V c 1 t) (GenP.iblk1 V c 2 t) (GenP.iblk1 V c 3 t) (GenP.iblk1 V c 4 t) (GenP.iblk1 V c 5 t) (ix2 p q)
      = Sage.layer true (V c main_v20) (V c main_v31) (V c main_v6) (V c main_v32) (V c main_v33) (V c main_v34) (ix2 r q) := by
  refine (LayerBody.pay1_apply (GenP.iblk1 V c 0 t) (GenP.iblk1 V c 1 t) (GenP.iblk1 V c 2 t) (GenP.iblk1 V c 3 t) (GenP.iblk1 V c 4 t) (GenP.iblk1 V c 5 t) p q).trans ?_
  rw [whole1_3 V c t, whole1_4 V c t, whole1_5 V c t, Sage.layer_apply]
  refine congrArg (Sage.act true) ?_
  exact Sage.entry_congr (V c main_v20) (V c main_v31) (V c main_v6) (GenP.iblk1 V c 0 t) (GenP.iblk1 V c 1 t) (GenP.iblk1 V c 2 t)
    (V c main_v32) (V c main_v33) (V c main_v34) r p q
    (fun k => rows1_0 V c t p r hr k) (fun k => rows1_1 V c t p r hr k) (rows1_2 V c t p r hr 0)

/-- What point t writes back is block t of the layer of the whole arrays. -/
theorem flushed1 (c : Dev nD) (t : Fin cfg1.N) :
    (GenP.dat1 (F := Ideal) V c).flushed 6 t = ((cfg1.win 6).blk t).view.read (Elt Ideal)
      (Sage.layer true (V c main_v20) (V c main_v31) (V c main_v6) (V c main_v32) (V c main_v33) (V c main_v34)) := by
  show (cfg1.win 6).cut (grid1.coords t) ((GenP.dat1 V c).after 6 t) = _
  rw [GenP.after1_6]
  unfold GenP.out1_6
  rw [View.canon_unit_zero zero_offsets]
  simp only [View.ld_unit_zero (S := S4000x128) zero_offsets, View.ld_unit_zero (S := S4000x1) zero_offsets, View.ld_unit_zero (S := S128x128) zero_offsets, View.ld_unit_zero (S := S1x128) zero_offsets]
  funext j
  obtain ⟨-, -, -, -, -, -, -, -, -, -, -, -, e0, e1⟩ := block_index1 t
  have ht : t.val < 25 := t.isLt
  have hp : (j 0).val < 4000 := (j 0).isLt
  have hq : (j 1).val < 128 := (j 1).isLt
  have hj : (cfg1.win 6).xinj (grid1.coords t) j = (ix2 (⟨(j 0).val, hp⟩ : Fin 4000) (⟨(j 1).val, hq⟩ : Fin 128) : S4000x128.Idx) := by
    funext a; match a with | ⟨0, _⟩ => rfl | ⟨1, _⟩ => rfl
  have hi : ((cfg1.win 6).blk t).view.emb j
      = (ix2 (⟨4000 * t.val + (j 0).val, by omega⟩ : Fin 100000) (⟨(j 1).val, hq⟩ : Fin 128) : S100000x128.Idx) := by
    funext a; apply Fin.ext
    match a with
    | ⟨0, _⟩ => show win1_6.index t (0 : Fin 2) * 4000 + 1 * (j 0).val = 4000 * t.val + (j 0).val; omega
    | ⟨1, _⟩ => show win1_6.index t (1 : Fin 2) * 128 + 1 * (j 1).val = (j 1).val; omega
  show Gen.k1_pay1 (F := Ideal) (GenP.iblk1 V c 0 t) (GenP.iblk1 V c 1 t) (GenP.iblk1 V c 2 t) (GenP.iblk1 V c 3 t) (GenP.iblk1 V c 4 t) (GenP.iblk1 V c 5 t) ((cfg1.win 6).xinj (grid1.coords t) j)
      = Sage.layer true (V c main_v20) (V c main_v31) (V c main_v6) (V c main_v32) (V c main_v33) (V c main_v34) (((cfg1.win 6).blk t).view.emb j)
  rw [hj, hi]
  exact block_value1 V c t _ _ _ rfl

/-- An index of the output array is in point t's block iff each coordinate is in the block's range on its axis. -/
theorem mem_block1 (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v35).slice (win1_6.rect t)).set ↔ _
  rw [View.set_slice_whole, Rect.mem_set_unit]
  exact Iff.rfl

/-- Every row r of the output lies in the block of point r / 4000, and every point writes its block back. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have ht : (i 0).val / 4000 < 25 := by omega
  refine ⟨⟨(i 0).val / 4000, ht⟩, Gen.flush1_6 _, ?_⟩
  obtain ⟨-, -, -, -, -, -, -, -, -, -, -, -, e0, e1⟩ := block_index1 ⟨(i 0).val / 4000, ht⟩
  have e0' : win1_6.index ⟨(i 0).val / 4000, ht⟩ (0 : Fin 2) = (i 0).val / 4000 := e0
  rw [mem_block1]
  intro a
  match a with
  | ⟨0, _⟩ =>
    show win1_6.index ⟨(i 0).val / 4000, ht⟩ (0 : Fin 2) * 4000 ≤ (i 0).val
      ∧ (i 0).val < win1_6.index ⟨(i 0).val / 4000, ht⟩ (0 : Fin 2) * 4000 + 4000
    omega
  | ⟨1, _⟩ =>
    show win1_6.index ⟨(i 0).val / 4000, ht⟩ (1 : Fin 2) * 128 ≤ (i 1).val
      ∧ (i 1).val < win1_6.index ⟨(i 0).val / 4000, ht⟩ (1 : Fin 2) * 128 + 128
    omega

/-- The output array after region 1: the layer of the arrays the region finds at entry. -/
theorem final1 (c : Dev nD) : (GenP.dat1 (F := Ideal) V c).arrAt 6 cfg1.N
      = Cert.Sage.layer true (V c main_v20) (V c main_v31) (V c main_v6) (V c main_v32) (V c main_v33) (V c main_v34) :=
  (GenP.dat1 V c).arrAt_eq_of_cover 6 _ (fun t _ => flushed1 V c t) cover1

/-! ## Region 2: rows 4000·t … 4000·t + 3999 at grid point t -/

/-- The block each window is at, at grid point t, decided over the 25 points: the features, the neighbour sums, the
    divisors and the output are at row block t; the two weight matrices and the bias row are single blocks. -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of point t's block of the features is row 4000·t + p of the array. -/
theorem rows2_0 (c : Dev nD) (t : Fin cfg2.N) (p : Fin 4000) (r : Fin 100000) (hr : r.val = 4000 * t.val + p.val) (k : Fin 128) :
    (GenP.iblk2 V c 0 t : Vec Ideal S4000x128 .bf16) (ix2 p k) = (V c main_v35 : S100000x128.Idx → EReal) (ix2 r k) := by
  obtain ⟨e0, e1, -⟩ := block_index2 t
  unfold GenP.iblk2
  rw [View.read_apply]
  show V c main_v35 (((cfg2.win 0).blk t).view.emb (ix2 p k)) = V c main_v35 (ix2 r k)
  refine congrArg (V c main_v35) (funext fun a => Fin.ext ?_)
  match a with
  | ⟨0, _⟩ => show win2_0.index t (0 : Fin 2) * 4000 + 1 * p.val = r.val; omega
  | ⟨1, _⟩ => show win2_0.index t (1 : Fin 2) * 128 + 1 * k.val = k.val; omega

/-- Row p of point t's block of the neighbour sums is row 4000·t + p of the array. -/
theorem rows2_1 (c : Dev nD) (t : Fin cfg2.N) (p : Fin 4000) (r : Fin 100000) (hr : r.val = 4000 * t.val + p.val) (k : Fin 128) :
    (GenP.iblk2 V c 1 t : Vec Ideal S4000x128 .f32) (ix2 p k) = (V c main_v46 : S100000x128.Idx → EReal) (ix2 r k) := by
  obtain ⟨-, -, e0, e1, -⟩ := block_index2 t
  unfold GenP.iblk2
  rw [View.read_apply]
  show V c main_v46 (((cfg2.win 1).blk t).view.emb (ix2 p k)) = V c main_v46 (ix2 r k)
  refine congrArg (V c main_v46) (funext fun a => Fin.ext ?_)
  match a with
  | ⟨0, _⟩ => show win2_1.index t (0 : Fin 2) * 4000 + 1 * p.val = r.val; omega
  | ⟨1, _⟩ => show win2_1.index t (1 : Fin 2) * 128 + 1 * k.val = k.val; omega

/-- Row p of point t's block of the divisors is row 4000·t + p of the array. -/
theorem rows2_2 (c : Dev nD) (t : Fin cfg2.N) (p : Fin 4000) (r : Fin 100000) (hr : r.val = 4000 * t.val + p.val) (k : Fin 1) :
    (GenP.iblk2 V c 2 t : Vec Ideal S4000x1 .f32) (ix2 p k) = (V c main_v6 : S100000x1.Idx → EReal) (ix2 r k) := by
  obtain ⟨-, -, -, -, e0, e1, -⟩ := block_index2 t
  unfold GenP.iblk2
  rw [View.read_apply]
  show V c main_v6 (((cfg2.win 2).blk t).view.emb (ix2 p k)) = V c main_v6 (ix2 r k)
  refine congrArg (V c main_v6) (funext fun a => Fin.ext ?_)
  match a with
  | ⟨0, _⟩ => show win2_2.index t (0 : Fin 2) * 4000 + 1 * p.val = r.val; omega
  | ⟨1, _⟩ => show win2_2.index t (1 : Fin 2) * 1 + 1 * k.val = k.val; omega

/-- Every point's block of the self weights is the whole array: its one block sits at block index (0, 0). -/
theorem whole2_3 (c : Dev nD) (t : Fin cfg2.N) :
    (GenP.iblk2 V c 3 t : Vec Ideal S128x64 .f32) = (V c main_v47 : S128x64.Idx → EReal) := by
  obtain ⟨-, -, -, -, -, -, e0, e1, -⟩ := block_index2 t
  funext y
  unfold GenP.iblk2
  rw [View.read_apply]
  show V c main_v47 (((cfg2.win 3).blk t).view.emb y) = V c main_v47 y
  refine congrArg (V c main_v47) (funext fun a => Fin.ext ?_)
  match a with
  | ⟨0, _⟩ => show win2_3.index t (0 : Fin 2) * 128 + 1 * (y 0).val = (y 0).val; omega
  | ⟨1, _⟩ => show win2_3.index t (1 : Fin 2) * 64 + 1 * (y 1).val = (y 1).val; omega

/-- Every point's block of the neighbour weights is the whole array: its one block sits at block index (0, 0). -/
theorem whole2_4 (c : Dev nD) (t : Fin cfg2.N) :
    (GenP.iblk2 V c 4 t : Vec Ideal S128x64 .f32) = (V c main_v48 : S128x64.Idx → EReal) := by
  obtain ⟨-, -, -, -, -, -, -, -, e0, e1, -⟩ := block_index2 t
  funext y
  unfold GenP.iblk2
  rw [View.read_apply]
  show V c main_v48 (((cfg2.win 4).blk t).view.emb y) = V c main_v48 y
  refine congrArg (V c main_v48) (funext fun a => Fin.ext ?_)
  match a with
  | ⟨0, _⟩ => show win2_4.index t (0 : Fin 2) * 128 + 1 * (y 0).val = (y 0).val; omega
  | ⟨1, _⟩ => show win2_4.index t (1 : Fin 2) * 64 + 1 * (y 1).val = (y 1).val; omega

/-- Every point's block of the bias row is the whole array: its one block sits at block index (0, 0). -/
theorem whole2_5 (c : Dev nD) (t : Fin cfg2.N) :
    (GenP.iblk2 V c 5 t : Vec Ideal S1x64 .f32) = (V c main_v49 : S1x64.Idx → EReal) := by
  obtain ⟨-, -, -, -, -, -, -, -, -, -, e0, e1, -⟩ := block_index2 t
  funext y
  unfold GenP.iblk2
  rw [View.read_apply]
  show V c main_v49 (((cfg2.win 5).blk t).view.emb y) = V c main_v49 y
  refine congrArg (V c main_v49) (funext fun a => Fin.ext ?_)
  match a with
  | ⟨0, _⟩ => show win2_5.index t (0 : Fin 2) * 1 + 1 * (y 0).val = (y 0).val; omega
  | ⟨1, _⟩ => show win2_5.index t (1 : Fin 2) * 64 + 1 * (y 1).val = (y 1).val; omega

/-- Entry (p, q) of what point t computes is entry (4000·t + p, q) of the layer of the whole arrays: the entry reads
    row p of the three row blocks, which is row 4000·t + p of their arrays, and the weights and the bias whole. -/
theorem block_value2 (c : Dev nD) (t : Fin cfg2.N) (p : Fin 4000) (q : Fin 64) (r : Fin 100000) (hr : r.val = 4000 * t.val + p.val) :
    Gen.k2_pay1 (F := Ideal) (GenP.iblk2 V c 0 t) (GenP.iblk2 V c 1 t) (GenP.iblk2 V c 2 t) (GenP.iblk2 V c 3 t) (GenP.iblk2 V c 4 t) (GenP.iblk2 V c 5 t) (ix2 p q)
      = Sage.layer false (V c main_v35) (V c main_v46) (V c main_v6) (V c main_v47) (V c main_v48) (V c main_v49) (ix2 r q) := by
  refine (LayerBody.pay2_apply (GenP.iblk2 V c 0 t) (GenP.iblk2 V c 1 t) (GenP.iblk2 V c 2 t) (GenP.iblk2 V c 3 t) (GenP.iblk2 V c 4 t) (GenP.iblk2 V c 5 t) p q).trans ?_
  rw [whole2_3 V c t, whole2_4 V c t, whole2_5 V c t, Sage.layer_apply]
  refine congrArg (Sage.act false) ?_
  exact Sage.entry_congr (V c main_v35) (V c main_v46) (V c main_v6) (GenP.iblk2 V c 0 t) (GenP.iblk2 V c 1 t) (GenP.iblk2 V c 2 t)
    (V c main_v47) (V c main_v48) (V c main_v49) r p q
    (fun k => rows2_0 V c t p r hr k) (fun k => rows2_1 V c t p r hr k) (rows2_2 V c t p r hr 0)

/-- What point t writes back is block t of the layer of the whole arrays. -/
theorem flushed2 (c : Dev nD) (t : Fin cfg2.N) :
    (GenP.dat2 (F := Ideal) V c).flushed 6 t = ((cfg2.win 6).blk t).view.read (Elt Ideal)
      (Sage.layer false (V c main_v35) (V c main_v46) (V c main_v6) (V c main_v47) (V c main_v48) (V c main_v49)) := by
  show (cfg2.win 6).cut (grid2.coords t) ((GenP.dat2 V c).after 6 t) = _
  rw [GenP.after2_6]
  unfold GenP.out2_6
  rw [View.canon_unit_zero zero_offsets]
  simp only [View.ld_unit_zero (S := S4000x128) zero_offsets, View.ld_unit_zero (S := S4000x1) zero_offsets, View.ld_unit_zero (S := S128x64) zero_offsets, View.ld_unit_zero (S := S1x64) zero_offsets]
  funext j
  obtain ⟨-, -, -, -, -, -, -, -, -, -, -, -, e0, e1⟩ := block_index2 t
  have ht : t.val < 25 := t.isLt
  have hp : (j 0).val < 4000 := (j 0).isLt
  have hq : (j 1).val < 64 := (j 1).isLt
  have hj : (cfg2.win 6).xinj (grid2.coords t) j = (ix2 (⟨(j 0).val, hp⟩ : Fin 4000) (⟨(j 1).val, hq⟩ : Fin 64) : S4000x64.Idx) := by
    funext a; match a with | ⟨0, _⟩ => rfl | ⟨1, _⟩ => rfl
  have hi : ((cfg2.win 6).blk t).view.emb j
      = (ix2 (⟨4000 * t.val + (j 0).val, by omega⟩ : Fin 100000) (⟨(j 1).val, hq⟩ : Fin 64) : S100000x64.Idx) := by
    funext a; apply Fin.ext
    match a with
    | ⟨0, _⟩ => show win2_6.index t (0 : Fin 2) * 4000 + 1 * (j 0).val = 4000 * t.val + (j 0).val; omega
    | ⟨1, _⟩ => show win2_6.index t (1 : Fin 2) * 64 + 1 * (j 1).val = (j 1).val; omega
  show Gen.k2_pay1 (F := Ideal) (GenP.iblk2 V c 0 t) (GenP.iblk2 V c 1 t) (GenP.iblk2 V c 2 t) (GenP.iblk2 V c 3 t) (GenP.iblk2 V c 4 t) (GenP.iblk2 V c 5 t) ((cfg2.win 6).xinj (grid2.coords t) j)
      = Sage.layer false (V c main_v35) (V c main_v46) (V c main_v6) (V c main_v47) (V c main_v48) (V c main_v49) (((cfg2.win 6).blk t).view.emb j)
  rw [hj, hi]
  exact block_value2 V c t _ _ _ rfl

/-- An index of the output array is in point t's block iff each coordinate is in the block's range on its axis. -/
theorem mem_block2 (t : Fin cfg2.N) (i : S100000x64.Idx) :
    i ∈ ((cfg2.win 6).blk t).view.set ↔ ∀ a : Fin 2, win2_6.index t a * S4000x64.size a ≤ (i a).val ∧ (i a).val < win2_6.index t a * S4000x64.size a + S4000x64.size a := by
  show i ∈ ((View.whole main_v50).slice (win2_6.rect t)).set ↔ _
  rw [View.set_slice_whole, Rect.mem_set_unit]
  exact Iff.rfl

/-- Every row r of the output lies in the block of point r / 4000, and every point writes its block back. -/
theorem cover2 (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have ht : (i 0).val / 4000 < 25 := by omega
  refine ⟨⟨(i 0).val / 4000, ht⟩, Gen.flush2_6 _, ?_⟩
  obtain ⟨-, -, -, -, -, -, -, -, -, -, -, -, e0, e1⟩ := block_index2 ⟨(i 0).val / 4000, ht⟩
  have e0' : win2_6.index ⟨(i 0).val / 4000, ht⟩ (0 : Fin 2) = (i 0).val / 4000 := e0
  rw [mem_block2]
  intro a
  match a with
  | ⟨0, _⟩ =>
    show win2_6.index ⟨(i 0).val / 4000, ht⟩ (0 : Fin 2) * 4000 ≤ (i 0).val
      ∧ (i 0).val < win2_6.index ⟨(i 0).val / 4000, ht⟩ (0 : Fin 2) * 4000 + 4000
    omega
  | ⟨1, _⟩ =>
    show win2_6.index ⟨(i 0).val / 4000, ht⟩ (1 : Fin 2) * 64 ≤ (i 1).val
      ∧ (i 1).val < win2_6.index ⟨(i 0).val / 4000, ht⟩ (1 : Fin 2) * 64 + 64
    omega

/-- The output array after region 2: the layer of the arrays the region finds at entry. -/
theorem final2 (c : Dev nD) : (GenP.dat2 (F := Ideal) V c).arrAt 6 cfg2.N
      = Cert.Sage.layer false (V c main_v35) (V c main_v46) (V c main_v6) (V c main_v47) (V c main_v48) (V c main_v49) :=
  (GenP.dat2 V c).arrAt_eq_of_cover 6 _ (fun t _ => flushed2 V c t) cover2

end Cert.KernelIdeal.RegionValue

end
-- ==== Proof.KValue.lean ====
/-
  The kernel program's result as the three-layer network.

  Reading the last boundary's contents backwards: the result array is the third pipeline's output, a layer of the arrays
  that pipeline found at its entry; of those, the feature array is the second pipeline's output (no operation in between
  writes it), the aggregate is the third stretch's gather and sum of that same array, the divisor column is the one the
  first stretch computed (it is only ever read), and the weights and the bias row are the third stretch's transposes and
  reshape of the arguments, which nothing writes.  The same reading of the second and the first pipeline ends at the
  launch memory.  The widening of bf16 rows before they are summed is the identity on extended reals, so all three
  aggregates are one function of the feature array.
-/
import proofs.«150431_j50714973831907_2_alg».proof.Proof.KernelIdealFrameP
import proofs.«150431_j50714973831907_2_alg».proof.Proof.KHost
import proofs.«150431_j50714973831907_2_alg».proof.Proof.RegionValue
import proofs.«150431_j50714973831907_2_alg».proof.Proof.Spec

set_option maxRecDepth 16384

noncomputable section

namespace Cert.KernelIdeal.KValue

open Cert.KernelIdeal Cert.KernelIdeal.Gen Cert.KernelIdeal.GenP Cert.KernelIdeal.KHost Cert.KernelIdeal.RegionValue
open Idealize.ShloMosaic Idealize.ShloMosaic.TcCoe Idealize.SL.Sem Idealize.ShloMosaic.StableHlo
open Idealize.ShloMosaic.Pipeline (Dat)

/-- Layers of equal arrays are equal. -/
theorem layer_congr {n k d : Nat} {relu : Bool} {h h' g g' : Cert.Sage.Arr n k} {dg dg' : Cert.Sage.Arr n 1}
    {A A' B B' : Cert.Sage.Arr k d} {b b' : Cert.Sage.Arr 1 d}
    (e1 : h = h') (e2 : g = g') (e3 : dg = dg') (e4 : A = A') (e5 : B = B') (e6 : b = b') :
    Cert.Sage.layer relu h g dg A B b = Cert.Sage.layer relu h' g' dg' A' B' b' := by
  rw [e1, e2, e3, e4, e5, e6]

/-- Widening is the identity on extended reals: the aggregate of a bf16 array is the aggregate of its values. -/
theorem aggB_eq (a1 a2 : Vec Ideal S600000 .i32) (H : Vec Ideal S100000x128 .bf16) : aggB a1 a2 H = agg a1 a2 H := rfl

variable (m : (ℓ : Loc nD τ sig) → Buf (Elt Ideal) ℓ) (ρ : Dev nD → PrngReg) (c : Dev nD)

/-- The first layer's output, of the launch arrays. -/
def H1 : Cert.Sage.Arr 100000 128 :=
  Cert.Sage.layer true (m ((c : Thread nD τ).loc main_arg0)) (agg (m ((c : Thread nD τ).loc main_arg1)) (m ((c : Thread nD τ).loc main_arg2)) (m ((c : Thread nD τ).loc main_arg0))) (degCol (m ((c : Thread nD τ).loc main_arg2)))
    (transpose S128x128 [1, 0] (m ((c : Thread nD τ).loc main_arg3)) transposes_S128x128_S128x128_1_0)
    (transpose S128x128 [1, 0] (m ((c : Thread nD τ).loc main_arg4)) transposes_S128x128_S128x128_1_0)
    (shapeCast S1x128 (m ((c : Thread nD τ).loc main_arg5)) shapeCasts_S128_S1x128)

/-- The second layer's output. -/
def H2 : Cert.Sage.Arr 100000 128 :=
  Cert.Sage.layer true (H1 m c) (agg (m ((c : Thread nD τ).loc main_arg1)) (m ((c : Thread nD τ).loc main_arg2)) (H1 m c)) (degCol (m ((c : Thread nD τ).loc main_arg2)))
    (transpose S128x128 [1, 0] (m ((c : Thread nD τ).loc main_arg6)) transposes_S128x128_S128x128_1_0)
    (transpose S128x128 [1, 0] (m ((c : Thread nD τ).loc main_arg7)) transposes_S128x128_S128x128_1_0)
    (shapeCast S1x128 (m ((c : Thread nD τ).loc main_arg8)) shapeCasts_S128_S1x128)

/-- The third layer's output: the program's result. -/
def H3 : Cert.Sage.Arr 100000 64 :=
  Cert.Sage.layer false (H2 m c) (agg (m ((c : Thread nD τ).loc main_arg1)) (m ((c : Thread nD τ).loc main_arg2)) (H2 m c)) (degCol (m ((c : Thread nD τ).loc main_arg2)))
    (transpose S128x64 [1, 0] (m ((c : Thread nD τ).loc main_arg9)) transposes_S64x128_S128x64_1_0)
    (transpose S128x64 [1, 0] (m ((c : Thread nD τ).loc main_arg10)) transposes_S64x128_S128x64_1_0)
    (shapeCast S1x64 (m ((c : Thread nD τ).loc main_arg11)) shapeCasts_S64_S1x64)

/-! ## The first pipeline's entry and exit -/

theorem V1_arg0 : V1 m ρ c main_arg0 = (m ((c : Thread nD τ).loc main_arg0)) := s0_keep_arg0 (W0 m ρ c)
theorem V1_v16 : V1 m ρ c main_v16 = agg (m ((c : Thread nD τ).loc main_arg1)) (m ((c : Thread nD τ).loc main_arg2)) (m ((c : Thread nD τ).loc main_arg0)) := s0_v16 (W0 m ρ c)
theorem V1_v6 : V1 m ρ c main_v6 = degCol (m ((c : Thread nD τ).loc main_arg2)) := s0_v6 (W0 m ρ c)
theorem V1_v17 : V1 m ρ c main_v17 = transpose S128x128 [1, 0] (m ((c : Thread nD τ).loc main_arg3)) transposes_S128x128_S128x128_1_0 := s0_v17 (W0 m ρ c)
theorem V1_v18 : V1 m ρ c main_v18 = transpose S128x128 [1, 0] (m ((c : Thread nD τ).loc main_arg4)) transposes_S128x128_S128x128_1_0 := s0_v18 (W0 m ρ c)
theorem V1_v19 : V1 m ρ c main_v19 = shapeCast S1x128 (m ((c : Thread nD τ).loc main_arg5)) shapeCasts_S128_S1x128 := s0_v19 (W0 m ρ c)

theorem W2_v20 : W2 m ρ c (Proc.devRef .tc main_v20) = H1 m c :=
  (W2_arr m ρ c 6).trans ((final0 (V1 m ρ) c).trans
    (layer_congr (V1_arg0 m ρ c) (V1_v16 m ρ c) (V1_v6 m ρ c) (V1_v17 m ρ c) (V1_v18 m ρ c) (V1_v19 m ρ c)))

theorem W2_v6 : W2 m ρ c (Proc.devRef .tc main_v6) = degCol (m ((c : Thread nD τ).loc main_arg2)) :=
  (W2_arr m ρ c 2).trans (((dat0 (V1 m ρ) c).arrAt_in 2 rfl _).trans ((A_eq0 (V1 m ρ) c 2).trans (V1_v6 m ρ c)))

theorem W2_arg1 : W2 m ρ c (Proc.devRef .tc main_arg1) = (m ((c : Thread nD τ).loc main_arg1)) :=
  (W2_of_ne m ρ c main_arg1 (by decide)).trans (s0_keep_arg1 (W0 m ρ c))
theorem W2_arg2 : W2 m ρ c (Proc.devRef .tc main_arg2) = (m ((c : Thread nD τ).loc main_arg2)) :=
  (W2_of_ne m ρ c main_arg2 (by decide)).trans (s0_keep_arg2 (W0 m ρ c))
theorem W2_arg6 : W2 m ρ c (Proc.devRef .tc main_arg6) = (m ((c : Thread nD τ).loc main_arg6)) :=
  (W2_of_ne m ρ c main_arg6 (by decide)).trans (s0_keep_arg6 (W0 m ρ c))
theorem W2_arg7 : W2 m ρ c (Proc.devRef .tc main_arg7) = (m ((c : Thread nD τ).loc main_arg7)) :=
  (W2_of_ne m ρ c main_arg7 (by decide)).trans (s0_keep_arg7 (W0 m ρ c))
theorem W2_arg8 : W2 m ρ c (Proc.devRef .tc main_arg8) = (m ((c : Thread nD τ).loc main_arg8)) :=
  (W2_of_ne m ρ c main_arg8 (by decide)).trans (s0_keep_arg8 (W0 m ρ c))
theorem W2_arg9 : W2 m ρ c (Proc.devRef .tc main_arg9) = (m ((c : Thread nD τ).loc main_arg9)) :=
  (W2_of_ne m ρ c main_arg9 (by decide)).trans (s0_keep_arg9 (W0 m ρ c))
theorem W2_arg10 : W2 m ρ c (Proc.devRef .tc main_arg10) = (m ((c : Thread nD τ).loc main_arg10)) :=
  (W2_of_ne m ρ c main_arg10 (by decide)).trans (s0_keep_arg10 (W0 m ρ c))
theorem W2_arg11 : W2 m ρ c (Proc.devRef .tc main_arg11) = (m ((c : Thread nD τ).loc main_arg11)) :=
  (W2_of_ne m ρ c main_arg11 (by decide)).trans (s0_keep_arg11 (W0 m ρ c))

/-! ## The second pipeline's entry and exit -/

theorem V3_v20 : V3 m ρ c main_v20 = H1 m c := (s1_keep_v20 (W2 m ρ c)).trans (W2_v20 m ρ c)
theorem V3_v31 : V3 m ρ c main_v31 = agg (m ((c : Thread nD τ).loc main_arg1)) (m ((c : Thread nD τ).loc main_arg2)) (H1 m c) :=
  (s1_v31 (W2 m ρ c)).trans (by rw [W2_arg1 m ρ c, W2_arg2 m ρ c, W2_v20 m ρ c]; exact aggB_eq _ _ _)
theorem V3_v6 : V3 m ρ c main_v6 = degCol (m ((c : Thread nD τ).loc main_arg2)) := (s1_keep_v6 (W2 m ρ c)).trans (W2_v6 m ρ c)
theorem V3_v32 : V3 m ρ c main_v32 = transpose S128x128 [1, 0] (m ((c : Thread nD τ).loc main_arg6)) transposes_S128x128_S128x128_1_0 :=
  (s1_v32 (W2 m ρ c)).trans (by rw [W2_arg6 m ρ c])
theorem V3_v33 : V3 m ρ c main_v33 = transpose S128x128 [1, 0] (m ((c : Thread nD τ).loc main_arg7)) transposes_S128x128_S128x128_1_0 :=
  (s1_v33 (W2 m ρ c)).trans (by rw [W2_arg7 m ρ c])
theorem V3_v34 : V3 m ρ c main_v34 = shapeCast S1x128 (m ((c : Thread nD τ).loc main_arg8)) shapeCasts_S128_S1x128 :=
  (s1_v34 (W2 m ρ c)).trans (by rw [W2_arg8 m ρ c])

theorem W4_v35 : W4 m ρ c (Proc.devRef .tc main_v35) = H2 m c :=
  (W4_arr m ρ c 6).trans ((final1 (V3 m ρ) c).trans
    (layer_congr (V3_v20 m ρ c) (V3_v31 m ρ c) (V3_v6 m ρ c) (V3_v32 m ρ c) (V3_v33 m ρ c) (V3_v34 m ρ c)))

theorem W4_v6 : W4 m ρ c (Proc.devRef .tc main_v6) = degCol (m ((c : Thread nD τ).loc main_arg2)) :=
  (W4_arr m ρ c 2).trans (((dat1 (V3 m ρ) c).arrAt_in 2 rfl _).trans ((A_eq1 (V3 m ρ) c 2).trans (V3_v6 m ρ c)))

theorem W4_arg1 : W4 m ρ c (Proc.devRef .tc main_arg1) = (m ((c : Thread nD τ).loc main_arg1)) :=
  (W4_of_ne m ρ c main_arg1 (by decide)).trans ((s1_keep_arg1 (W2 m ρ c)).trans (W2_arg1 m ρ c))
theorem W4_arg2 : W4 m ρ c (Proc.devRef .tc main_arg2) = (m ((c : Thread nD τ).loc main_arg2)) :=
  (W4_of_ne m ρ c main_arg2 (by decide)).trans ((s1_keep_arg2 (W2 m ρ c)).trans (W2_arg2 m ρ c))
theorem W4_arg9 : W4 m ρ c (Proc.devRef .tc main_arg9) = (m ((c : Thread nD τ).loc main_arg9)) :=
  (W4_of_ne m ρ c main_arg9 (by decide)).trans ((s1_keep_arg9 (W2 m ρ c)).trans (W2_arg9 m ρ c))
theorem W4_arg10 : W4 m ρ c (Proc.devRef .tc main_arg10) = (m ((c : Thread nD τ).loc main_arg10)) :=
  (W4_of_ne m ρ c main_arg10 (by decide)).trans ((s1_keep_arg10 (W2 m ρ c)).trans (W2_arg10 m ρ c))
theorem W4_arg11 : W4 m ρ c (Proc.devRef .tc main_arg11) = (m ((c : Thread nD τ).loc main_arg11)) :=
  (W4_of_ne m ρ c main_arg11 (by decide)).trans ((s1_keep_arg11 (W2 m ρ c)).trans (W2_arg11 m ρ c))

/-! ## The third pipeline's entry and exit -/

theorem V5_v35 : V5 m ρ c main_v35 = H2 m c := (s2_keep_v35 (W4 m ρ c)).trans (W4_v35 m ρ c)
theorem V5_v46 : V5 m ρ c main_v46 = agg (m ((c : Thread nD τ).loc main_arg1)) (m ((c : Thread nD τ).loc main_arg2)) (H2 m c) :=
  (s2_v46 (W4 m ρ c)).trans (by rw [W4_arg1 m ρ c, W4_arg2 m ρ c, W4_v35 m ρ c]; exact aggB_eq _ _ _)
theorem V5_v6 : V5 m ρ c main_v6 = degCol (m ((c : Thread nD τ).loc main_arg2)) := (s2_keep_v6 (W4 m ρ c)).trans (W4_v6 m ρ c)
theorem V5_v47 : V5 m ρ c main_v47 = transpose S128x64 [1, 0] (m ((c : Thread nD τ).loc main_arg9)) transposes_S64x128_S128x64_1_0 :=
  (s2_v47 (W4 m ρ c)).trans (by rw [W4_arg9 m ρ c])
theorem V5_v48 : V5 m ρ c main_v48 = transpose S128x64 [1, 0] (m ((c : Thread nD τ).loc main_arg10)) transposes_S64x128_S128x64_1_0 :=
  (s2_v48 (W4 m ρ c)).trans (by rw [W4_arg10 m ρ c])
theorem V5_v49 : V5 m ρ c main_v49 = shapeCast S1x64 (m ((c : Thread nD τ).loc main_arg11)) shapeCasts_S64_S1x64 :=
  (s2_v49 (W4 m ρ c)).trans (by rw [W4_arg11 m ρ c])

/-- The result array at the return is the third layer's output. -/
theorem W6_v50 : W6 m ρ c (Proc.devRef .tc main_v50) = H3 m c :=
  (W6_arr m ρ c 6).trans ((final2 (V5 m ρ) c).trans
    (layer_congr (V5_v35 m ρ c) (V5_v46 m ρ c) (V5_v6 m ρ c) (V5_v47 m ρ c) (V5_v48 m ρ c) (V5_v49 m ρ c)))

/-- The three layers are the network of the launch arrays. -/
theorem H3_eq_net : H3 m c
    = Cert.Sage.net (agg (m ((c : Thread nD τ).loc main_arg1)) (m ((c : Thread nD τ).loc main_arg2))) (degCol (m ((c : Thread nD τ).loc main_arg2))) (m ((c : Thread nD τ).loc main_arg0))
        (transpose S128x128 [1, 0] (m ((c : Thread nD τ).loc main_arg3)) transposes_S128x128_S128x128_1_0)
        (transpose S128x128 [1, 0] (m ((c : Thread nD τ).loc main_arg4)) transposes_S128x128_S128x128_1_0)
        (shapeCast S1x128 (m ((c : Thread nD τ).loc main_arg5)) shapeCasts_S128_S1x128)
        (transpose S128x128 [1, 0] (m ((c : Thread nD τ).loc main_arg6)) transposes_S128x128_S128x128_1_0)
        (transpose S128x128 [1, 0] (m ((c : Thread nD τ).loc main_arg7)) transposes_S128x128_S128x128_1_0)
        (shapeCast S1x128 (m ((c : Thread nD τ).loc main_arg8)) shapeCasts_S128_S1x128)
        (transpose S128x64 [1, 0] (m ((c : Thread nD τ).loc main_arg9)) transposes_S64x128_S128x64_1_0)
        (transpose S128x64 [1, 0] (m ((c : Thread nD τ).loc main_arg10)) transposes_S64x128_S128x64_1_0)
        (shapeCast S1x64 (m ((c : Thread nD τ).loc main_arg11)) shapeCasts_S64_S1x64) := rfl

end Cert.KernelIdeal.KValue

end
-- ==== Proof.HostLayer.lean ====
/-
  One graph-convolution layer as the reference program computes it — with whole-array operations — against the
  entry-by-entry definition of the layer.

  The program forms, for node features H (n rows, k columns), neighbour sums G of the same shape, a column DG of n
  divisors, two k×d matrices A and B and a bias row b (one row, d columns),
      H·A  +  (G ⊘ spread(DG))·B  +  spread(b),
  where spread(DG) repeats the column across the k columns, ⊘ divides entry by entry, spread(b) repeats the row down
  the n rows and · is the matrix product; a rectified layer then takes the maximum with an all-zero array.
  Read at (p, q): spread(DG) at (p, c) is DG at (p, 0) for every c, spread(b) at (p, q) is b at (0, q), and a matrix
  product is the sum over the contracted coordinate c. So entry (p, q) is
      Σ_c H(p,c)·A(c,q) + Σ_c (G(p,c) / DG(p,0))·B(c,q) + b(0,q),
  which is the layer's entry by definition; the rectifier commutes with reading an entry.
-/
import Idealize.ShloMosaic.Lib.ValueIdx
import Idealize.ShloMosaic.Lib.Pipeline.Value
import Idealize.ShloMosaic.PureOps.Ideal.Laws
import proofs.«150431_j50714973831907_2_alg».proof.Proof.Spec
import proofs.«150431_j50714973831907_2_alg».proof.Proof.LibDot

noncomputable section

namespace Cert.HostLayer

open Idealize.ShloMosaic Idealize.ShloMosaic.ValueIdx
open scoped BigOperators

variable {n k d : Nat}

/-- A column of n entries repeated across k columns: at (p, c) it reads the column's entry p, whatever c is.
    (The column's second axis has extent one, so its coordinate there is 0; its first axis keeps the row p —
    also when n itself is one, where p can only be 0.) -/
theorem spread_col_apply
    (hb : (⟨2, ![n, 1]⟩ : Shape).BroadcastsInDim ⟨2, ![n, k]⟩ (![0, 1] : Fin 2 → Fin 2))
    (DG : (⟨2, ![n, 1]⟩ : Shape).Idx → EReal) (p : Fin n) (c : Fin k) :
    broadcastInDim ⟨2, ![n, k]⟩ (![0, 1] : Fin 2 → Fin 2) hb DG (ix2 p c) = DG (ix2 p (0 : Fin 1)) := by
  refine broadcastInDim_apply _ hb DG (ix2 p c) (ix2 p (0 : Fin 1)) (fun a => ?_)
  match a with
  | ⟨0, _⟩ =>
    show p.val = if n = 1 then 0 else p.val
    by_cases h1 : n = 1
    · rw [if_pos h1]; have := p.isLt; omega
    · rw [if_neg h1]
  | ⟨1, _⟩ =>
    show (0 : Nat) = if (1 : Nat) = 1 then 0 else c.val
    rw [if_pos rfl]

/-- A row of d entries repeated down n rows: at (p, q) it reads the row's entry q, whatever p is. -/
theorem spread_row_apply
    (hb : (⟨2, ![1, d]⟩ : Shape).BroadcastsInDim ⟨2, ![n, d]⟩ (![0, 1] : Fin 2 → Fin 2))
    (b : (⟨2, ![1, d]⟩ : Shape).Idx → EReal) (p : Fin n) (q : Fin d) :
    broadcastInDim ⟨2, ![n, d]⟩ (![0, 1] : Fin 2 → Fin 2) hb b (ix2 p q) = b (ix2 (0 : Fin 1) q) := by
  refine broadcastInDim_apply _ hb b (ix2 p q) (ix2 (0 : Fin 1) q) (fun a => ?_)
  match a with
  | ⟨0, _⟩ =>
    show (0 : Nat) = if (1 : Nat) = 1 then 0 else p.val
    rw [if_pos rfl]
  | ⟨1, _⟩ =>
    show q.val = if d = 1 then 0 else q.val
    by_cases h1 : d = 1
    · rw [if_pos h1]; have := q.isLt; omega
    · rw [if_neg h1]

/-- The layer without the rectifier: the two matrix products, the entrywise quotient by the spread column and the
    spread bias row, as whole arrays, are the layer of the specification. -/
theorem lin_eq (w : DotDims.WF ⟨2, ![n, k]⟩ ⟨2, ![k, d]⟩ ⟨2, ![n, d]⟩ [1] [0] [0] [1] [] [])
    (hb : (⟨2, ![n, 1]⟩ : Shape).BroadcastsInDim ⟨2, ![n, k]⟩ (![0, 1] : Fin 2 → Fin 2))
    (hb2 : (⟨2, ![1, d]⟩ : Shape).BroadcastsInDim ⟨2, ![n, d]⟩ (![0, 1] : Fin 2 → Fin 2))
    (H G : FVec Ideal ⟨2, ![n, k]⟩ .f32) (DG : FVec Ideal ⟨2, ![n, 1]⟩ .f32)
    (A B : FVec Ideal ⟨2, ![k, d]⟩ .f32) (b : FVec Ideal ⟨2, ![1, d]⟩ .f32) :
    addf (addf (Host.dotGeneral (LibDot.dims w) none H A)
               (Host.dotGeneral (LibDot.dims w) none
                 (Host.divf G (broadcastInDim ⟨2, ![n, k]⟩ (![0, 1] : Fin 2 → Fin 2) hb DG)) B))
         (broadcastInDim ⟨2, ![n, d]⟩ (![0, 1] : Fin 2 → Fin 2) hb2 b)
      = Sage.layer false H G DG A B b := by
  funext i
  obtain ⟨p, q, rfl⟩ : ∃ p q, i = ix2 p q := ⟨i 0, i 1, eq_ix2 i⟩
  rw [Sage.layer_apply, addf_apply, addf_apply, LibDot.dotGeneral_apply, LibDot.dotGeneral_apply,
    spread_row_apply]
  -- the quotient array at (p, c): the sum's entry over the divisor of row p
  have eq : ∀ c : Fin k, Host.divf G (broadcastInDim ⟨2, ![n, k]⟩ (![0, 1] : Fin 2 → Fin 2) hb DG) (ix2 p c)
      = Ideal.div (G (ix2 p c)) (DG (ix2 p (0 : Fin 1))) := fun c => by
    show Ideal.div (G (ix2 p c)) (broadcastInDim ⟨2, ![n, k]⟩ (![0, 1] : Fin 2 → Fin 2) hb DG (ix2 p c)) = _
    rw [spread_col_apply]
  have es : (∑ c : Fin k, Host.divf G (broadcastInDim ⟨2, ![n, k]⟩ (![0, 1] : Fin 2 → Fin 2) hb DG) (ix2 p c) * B (ix2 c q))
      = ∑ c : Fin k, Ideal.div (G (ix2 p c)) (DG (ix2 p (0 : Fin 1))) * B (ix2 c q) :=
    Finset.sum_congr rfl fun c _ => by rw [eq c]
  rw [es]
  rfl

/-- The rectified layer: the maximum with the all-zero array, entry by entry. -/
theorem relu_eq (w : DotDims.WF ⟨2, ![n, k]⟩ ⟨2, ![k, d]⟩ ⟨2, ![n, d]⟩ [1] [0] [0] [1] [] [])
    (hb : (⟨2, ![n, 1]⟩ : Shape).BroadcastsInDim ⟨2, ![n, k]⟩ (![0, 1] : Fin 2 → Fin 2))
    (hb2 : (⟨2, ![1, d]⟩ : Shape).BroadcastsInDim ⟨2, ![n, d]⟩ (![0, 1] : Fin 2 → Fin 2))
    (hz : (⟨0, ![]⟩ : Shape).BroadcastsInDim ⟨2, ![n, d]⟩ (![] : Fin 0 → Fin 2))
    (H G : FVec Ideal ⟨2, ![n, k]⟩ .f32) (DG : FVec Ideal ⟨2, ![n, 1]⟩ .f32)
    (A B : FVec Ideal ⟨2, ![k, d]⟩ .f32) (b : FVec Ideal ⟨2, ![1, d]⟩ .f32) :
    maximumf
        (addf (addf (Host.dotGeneral (LibDot.dims w) none H A)
                   (Host.dotGeneral (LibDot.dims w) none
                     (Host.divf G (broadcastInDim ⟨2, ![n, k]⟩ (![0, 1] : Fin 2 → Fin 2) hb DG)) B))
             (broadcastInDim ⟨2, ![n, d]⟩ (![0, 1] : Fin 2 → Fin 2) hb2 b))
        (broadcastInDim ⟨2, ![n, d]⟩ (![] : Fin 0 → Fin 2) hz (constant (F := Ideal) ⟨0, ![]⟩ .f32 0x00000000#32))
      = Sage.layer true H G DG A B b := by
  rw [lin_eq w hb hb2 H G DG A B b]
  funext i
  rfl

end Cert.HostLayer
-- ==== Proof.RefValue.lean ====
/-
  The reference program's result as the three-layer network of the specification.

  The program repeats one pattern three times. For the current node features H (100000 rows) it gathers, for each of
  the 600000 edges, the row of H the edge's source names (a negative source counts from the end: 100000 is added),
  and adds that row into the row of an all-zero array the edge's destination names: the neighbour sums of H. It
  counts, the same way, the edges that arrive at each node and takes the maximum of that count with one: the
  divisors, one per node, the same for every layer. Then it forms
      H·Wsᵀ + (sums ⊘ divisors)·Wnᵀ + bias
  with whole-array operations, and after the first two layers the maximum with zero. Each of these is the layer of the
  specification applied to H, its neighbour sums and the divisor column; the network is the three in sequence, each fed
  the previous one's output, so the program's result term is the network by unfolding names on both sides.
-/
import proofs.«150431_j50714973831907_2_alg».proof.Proof.Gen.ReferenceIdeal.Read
import proofs.«150431_j50714973831907_2_alg».proof.Proof.Spec
import proofs.«150431_j50714973831907_2_alg».proof.Proof.LibDot
import proofs.«150431_j50714973831907_2_alg».proof.Proof.HostLayer

noncomputable section

namespace Cert.ReferenceIdeal.RefValue

open Cert.ReferenceIdeal Cert.ReferenceIdeal.Gen Cert.ReferenceIdeal.Value Idealize.ShloMosaic Idealize.ShloMosaic.TcCoe Idealize.SL.Sem

/-- The gather positions: the edges' sources with negative entries wrapped by 100000, as a [600000, 1] column. -/
def srcIdx (a1 : Vec Ideal S600000 .i32) : Vec Ideal S600000x1 .i32 :=
  broadcastInDim S600000x1 ![0] bcast_S600000_S600000x1_0 (select (cmpi .slt a1 (broadcastInDim S600000 ![] bcast_S_S600000 (constantI S_ 32 0#32))) (addi a1 (broadcastInDim S600000 ![] bcast_S_S600000 (constantI S_ 32 100000#32))) a1)

/-- The neighbour sums of a feature array: its rows gathered at the edges' sources and added into the rows of an
    all-zero array that the edges' destinations name. -/
def agg (a1 a2 : Vec Ideal S600000 .i32) (H : FVec Ideal S100000x128 .f32) : FVec Ideal S100000x128 .f32 :=
  Host.scatterAdd scatter_S100000x128_S600000x1_S600000x128_1_0_0_1 (broadcastInDim S100000x128 ![] bcast_S_S100000x128 (constant S_ .f32 0x00000000#32)) (broadcastInDim S600000x1 ![0] bcast_S600000_S600000x1_0 a2) (Host.gather gather_S100000x128_S600000x1_S600000x128_1_0_n_n_0_1_1128 H (srcIdx a1))

/-- The divisors as a vector of length 100000: the number of edges arriving at each node (ones added into an all-zero
    vector at the edges' destinations), and at least one. -/
def degVec (a2 : Vec Ideal S600000 .i32) : FVec Ideal S100000 .f32 :=
  maximumf (Host.scatterAdd scatter_S100000_S600000x1_S600000_n_0_0_1 (broadcastInDim S100000 ![] bcast_S_S100000 (constant S_ .f32 0x00000000#32)) (broadcastInDim S600000x1 ![0] bcast_S600000_S600000x1_0 a2) (broadcastInDim S600000 ![] bcast_S_S600000 (constant S_ .f32 0x3F800000#32))) (broadcastInDim S100000 ![] bcast_S_S100000 (constant S_ .f32 0x3F800000#32))

/-- A rectified layer with 128 output columns, written with the program's own whole-array operations. -/
def hid (H G : FVec Ideal S100000x128 .f32) (DG : FVec Ideal S100000x1 .f32) (A B : FVec Ideal S128x128 .f32)
    (b : FVec Ideal S1x128 .f32) : FVec Ideal S100000x128 .f32 :=
  maximumf (addf (addf (Host.dotGeneral dot_S100000x128_S128x128_S100000x128_1_0_0_1_n_n none H A) (Host.dotGeneral dot_S100000x128_S128x128_S100000x128_1_0_0_1_n_n none (Host.divf G (broadcastInDim S100000x128 ![0, 1] bcast_S100000x1_S100000x128_0_1 DG)) B)) (broadcastInDim S100000x128 ![0, 1] bcast_S1x128_S100000x128_0_1 b)) (broadcastInDim S100000x128 ![] bcast_S_S100000x128 (constant S_ .f32 0x00000000#32))

/-- The last layer, 64 output columns and no rectifier, written with the program's own whole-array operations. -/
def out (H G : FVec Ideal S100000x128 .f32) (DG : FVec Ideal S100000x1 .f32) (A B : FVec Ideal S128x64 .f32)
    (b : FVec Ideal S1x64 .f32) : FVec Ideal S100000x64 .f32 :=
  addf (addf (Host.dotGeneral dot_S100000x128_S128x64_S100000x64_1_0_0_1_n_n none H A) (Host.dotGeneral dot_S100000x128_S128x64_S100000x64_1_0_0_1_n_n none (Host.divf G (broadcastInDim S100000x128 ![0, 1] bcast_S100000x1_S100000x128_0_1 DG)) B)) (broadcastInDim S100000x64 ![0, 1] bcast_S1x64_S100000x64_0_1 b)

/-- A rectified 128-column layer of the program is the specification's rectified layer of the same arrays. -/
theorem hid_eq (H G : FVec Ideal S100000x128 .f32) (DG : FVec Ideal S100000x1 .f32) (A B : FVec Ideal S128x128 .f32)
    (b : FVec Ideal S1x128 .f32) :
    hid H G DG A B b = Cert.Sage.layer (n := 100000) (k := 128) (d := 128) true H G DG A B b :=
  Cert.HostLayer.relu_eq (n := 100000) (k := 128) (d := 128) dot_S100000x128_S128x128_S100000x128_1_0_0_1_n_n_wf
    bcast_S100000x1_S100000x128_0_1 bcast_S1x128_S100000x128_0_1 bcast_S_S100000x128 H G DG A B b

/-- The program's last layer is the specification's unrectified layer of the same arrays. -/
theorem out_eq (H G : FVec Ideal S100000x128 .f32) (DG : FVec Ideal S100000x1 .f32) (A B : FVec Ideal S128x64 .f32)
    (b : FVec Ideal S1x64 .f32) :
    out H G DG A B b = Cert.Sage.layer (n := 100000) (k := 128) (d := 64) false H G DG A B b :=
  Cert.HostLayer.lin_eq (n := 100000) (k := 128) (d := 64) dot_S100000x128_S128x64_S100000x64_1_0_0_1_n_n_wf
    bcast_S100000x1_S100000x128_0_1 bcast_S1x64_S100000x64_0_1 H G DG A B b

/-- The program's result term is the three layers in sequence, each fed the previous one's output and that output's
    neighbour sums, all with the same divisor column: the names on the right unfold to the term on the left. -/
theorem res_layers (m : (ℓ : Loc nD τ sig) → Buf (Elt Ideal) ℓ) (c : Dev nD) :
    Value.res_main_v82 (F := Ideal) m c
      = out
          (hid (hid (m ((c.tc : Thread nD τ).loc main_arg0)) (agg (m ((c.tc : Thread nD τ).loc main_arg1)) (m ((c.tc : Thread nD τ).loc main_arg2)) (m ((c.tc : Thread nD τ).loc main_arg0))) (broadcastInDim S100000x1 ![0] bcast_S100000_S100000x1_0 (degVec (m ((c.tc : Thread nD τ).loc main_arg2)))) (transpose S128x128 [1, 0] (m ((c.tc : Thread nD τ).loc main_arg3)) transposes_S128x128_S128x128_1_0) (transpose S128x128 [1, 0] (m ((c.tc : Thread nD τ).loc main_arg4)) transposes_S128x128_S128x128_1_0) (broadcastInDim S1x128 ![1] bcast_S128_S1x128_1 (m ((c.tc : Thread nD τ).loc main_arg5))))
               (agg (m ((c.tc : Thread nD τ).loc main_arg1)) (m ((c.tc : Thread nD τ).loc main_arg2)) (hid (m ((c.tc : Thread nD τ).loc main_arg0)) (agg (m ((c.tc : Thread nD τ).loc main_arg1)) (m ((c.tc : Thread nD τ).loc main_arg2)) (m ((c.tc : Thread nD τ).loc main_arg0))) (broadcastInDim S100000x1 ![0] bcast_S100000_S100000x1_0 (degVec (m ((c.tc : Thread nD τ).loc main_arg2)))) (transpose S128x128 [1, 0] (m ((c.tc : Thread nD τ).loc main_arg3)) transposes_S128x128_S128x128_1_0) (transpose S128x128 [1, 0] (m ((c.tc : Thread nD τ).loc main_arg4)) transposes_S128x128_S128x128_1_0) (broadcastInDim S1x128 ![1] bcast_S128_S1x128_1 (m ((c.tc : Thread nD τ).loc main_arg5)))))
               (broadcastInDim S100000x1 ![0] bcast_S100000_S100000x1_0 (degVec (m ((c.tc : Thread nD τ).loc main_arg2)))) (transpose S128x128 [1, 0] (m ((c.tc : Thread nD τ).loc main_arg6)) transposes_S128x128_S128x128_1_0) (transpose S128x128 [1, 0] (m ((c.tc : Thread nD τ).loc main_arg7)) transposes_S128x128_S128x128_1_0) (broadcastInDim S1x128 ![1] bcast_S128_S1x128_1 (m ((c.tc : Thread nD τ).loc main_arg8))))
          (agg (m ((c.tc : Thread nD τ).loc main_arg1)) (m ((c.tc : Thread nD τ).loc main_arg2))
            (hid (hid (m ((c.tc : Thread nD τ).loc main_arg0)) (agg (m ((c.tc : Thread nD τ).loc main_arg1)) (m ((c.tc : Thread nD τ).loc main_arg2)) (m ((c.tc : Thread nD τ).loc main_arg0))) (broadcastInDim S100000x1 ![0] bcast_S100000_S100000x1_0 (degVec (m ((c.tc : Thread nD τ).loc main_arg2)))) (transpose S128x128 [1, 0] (m ((c.tc : Thread nD τ).loc main_arg3)) transposes_S128x128_S128x128_1_0) (transpose S128x128 [1, 0] (m ((c.tc : Thread nD τ).loc main_arg4)) transposes_S128x128_S128x128_1_0) (broadcastInDim S1x128 ![1] bcast_S128_S1x128_1 (m ((c.tc : Thread nD τ).loc main_arg5))))
               (agg (m ((c.tc : Thread nD τ).loc main_arg1)) (m ((c.tc : Thread nD τ).loc main_arg2)) (hid (m ((c.tc : Thread nD τ).loc main_arg0)) (agg (m ((c.tc : Thread nD τ).loc main_arg1)) (m ((c.tc : Thread nD τ).loc main_arg2)) (m ((c.tc : Thread nD τ).loc main_arg0))) (broadcastInDim S100000x1 ![0] bcast_S100000_S100000x1_0 (degVec (m ((c.tc : Thread nD τ).loc main_arg2)))) (transpose S128x128 [1, 0] (m ((c.tc : Thread nD τ).loc main_arg3)) transposes_S128x128_S128x128_1_0) (transpose S128x128 [1, 0] (m ((c.tc : Thread nD τ).loc main_arg4)) transposes_S128x128_S128x128_1_0) (broadcastInDim S1x128 ![1] bcast_S128_S1x128_1 (m ((c.tc : Thread nD τ).loc main_arg5)))))
               (broadcastInDim S100000x1 ![0] bcast_S100000_S100000x1_0 (degVec (m ((c.tc : Thread nD τ).loc main_arg2)))) (transpose S128x128 [1, 0] (m ((c.tc : Thread nD τ).loc main_arg6)) transposes_S128x128_S128x128_1_0) (transpose S128x128 [1, 0] (m ((c.tc : Thread nD τ).loc main_arg7)) transposes_S128x128_S128x128_1_0) (broadcastInDim S1x128 ![1] bcast_S128_S1x128_1 (m ((c.tc : Thread nD τ).loc main_arg8)))))
          (broadcastInDim S100000x1 ![0] bcast_S100000_S100000x1_0 (degVec (m ((c.tc : Thread nD τ).loc main_arg2)))) (transpose S128x64 [1, 0] (m ((c.tc : Thread nD τ).loc main_arg9)) transposes_S64x128_S128x64_1_0) (transpose S128x64 [1, 0] (m ((c.tc : Thread nD τ).loc main_arg10)) transposes_S64x128_S128x64_1_0) (broadcastInDim S1x64 ![1] bcast_S64_S1x64_1 (m ((c.tc : Thread nD τ).loc main_arg11))) := by
  unfold Value.res_main_v82
  rfl

/-- The reference program's result is the three-layer network of the specification: the aggregation is the gather at
    the edges' sources followed by the scatter-add at their destinations, the divisors are the clipped in-degrees as a
    column, the weight matrices are the arguments' transposes and the biases the arguments as rows. -/
theorem result_eq (m : (ℓ : Loc nD τ sig) → Buf (Elt Ideal) ℓ) (c : Dev nD) :
    Value.res_main_v82 (F := Ideal) m c
      = Cert.Sage.net (n := 100000) (k := 128) (d := 64) (agg (m ((c.tc : Thread nD τ).loc main_arg1)) (m ((c.tc : Thread nD τ).loc main_arg2))) (broadcastInDim S100000x1 ![0] bcast_S100000_S100000x1_0 (degVec (m ((c.tc : Thread nD τ).loc main_arg2)))) (m ((c.tc : Thread nD τ).loc main_arg0))
          (transpose S128x128 [1, 0] (m ((c.tc : Thread nD τ).loc main_arg3)) transposes_S128x128_S128x128_1_0) (transpose S128x128 [1, 0] (m ((c.tc : Thread nD τ).loc main_arg4)) transposes_S128x128_S128x128_1_0) (broadcastInDim S1x128 ![1] bcast_S128_S1x128_1 (m ((c.tc : Thread nD τ).loc main_arg5)))
          (transpose S128x128 [1, 0] (m ((c.tc : Thread nD τ).loc main_arg6)) transposes_S128x128_S128x128_1_0) (transpose S128x128 [1, 0] (m ((c.tc : Thread nD τ).loc main_arg7)) transposes_S128x128_S128x128_1_0) (broadcastInDim S1x128 ![1] bcast_S128_S1x128_1 (m ((c.tc : Thread nD τ).loc main_arg8)))
          (transpose S128x64 [1, 0] (m ((c.tc : Thread nD τ).loc main_arg9)) transposes_S64x128_S128x64_1_0) (transpose S128x64 [1, 0] (m ((c.tc : Thread nD τ).loc main_arg10)) transposes_S64x128_S128x64_1_0) (broadcastInDim S1x64 ![1] bcast_S64_S1x64_1 (m ((c.tc : Thread nD τ).loc main_arg11))) := by
  rw [res_layers, hid_eq, hid_eq, out_eq]
  rfl

end Cert.ReferenceIdeal.RefValue
-- ==== Proof.LibRow.lean ====
/-
  A vector laid out as a one-row matrix. Reshaping a length-n vector to shape 1×n and broadcasting it along a new
  leading axis of extent 1 are the same array: entry (0, q) is entry q of the vector.
-/
import Idealize.ShloMosaic.Lib.Pipeline.Value
import Idealize.ShloMosaic.Lib.ValueIdx

noncomputable section

namespace Cert.LibRow

open Idealize.ShloMosaic Idealize.ShloMosaic.ValueIdx

/-- The row-major reshape of a vector to one row is its broadcast along a new leading unit axis. -/
theorem reshape_row_eq_broadcast {n : Nat} {α : Type} (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, q, rfl⟩ : ∃ (z : Fin 1) (q : Fin n), j = ix2 z q := ⟨j 0, j 1, eq_ix2 j⟩
  have hq := q.isLt
  have hz := z.isLt
  rw [shapeCast_apply x h (ix2 z q) (ix1 q) (by
    rw [Shape.rowMajor_val_one, Shape.rowMajor_val_two]
    show q.val = z.val * n + q.val
    have : z.val = 0 := by omega
    rw [this]; omega)]
  exact (broadcastInDim_apply ![1] h' x (ix2 z q) (ix1 q) (fun a => by
    match a with
    | ⟨0, _⟩ => show q.val = if n = 1 then 0 else q.val; split <;> omega)).symm

end Cert.LibRow
-- ==== Proof.LibCol.lean ====
/-
  A vector laid out as a one-column matrix. Reshaping a length-n vector to shape n×1 and broadcasting it along a new
  trailing axis of extent 1 are the same array: entry (p, 0) is entry p of the vector.
-/
import Idealize.ShloMosaic.Lib.Pipeline.Value
import Idealize.ShloMosaic.Lib.ValueIdx

noncomputable section

namespace Cert.LibCol

open Idealize.ShloMosaic Idealize.ShloMosaic.ValueIdx

/-- The row-major reshape of a vector to one column is its broadcast along a new trailing unit axis. -/
theorem reshape_col_eq_broadcast {n : Nat} {α : Type} (x : (⟨1, ![n]⟩ : Shape).Idx → α)
    (h : (⟨1, ![n]⟩ : Shape).ShapeCasts ⟨2, ![n, 1]⟩)
    (h' : (⟨1, ![n]⟩ : Shape).BroadcastsInDim ⟨2, ![n, 1]⟩ (![0] : Fin 1 → Fin 2)) :
    shapeCast ⟨2, ![n, 1]⟩ x h = broadcastInDim ⟨2, ![n, 1]⟩ ![0] h' x := by
  funext j
  obtain ⟨p, u, rfl⟩ : ∃ (p : Fin n) (u : Fin 1), j = ix2 p u := ⟨j 0, j 1, eq_ix2 j⟩
  have hp := p.isLt
  have hu := u.isLt
  rw [shapeCast_apply x h (ix2 p u) (ix1 p) (by
    rw [Shape.rowMajor_val_one, Shape.rowMajor_val_two]
    show p.val = p.val * 1 + u.val
    have : u.val = 0 := by omega
    rw [this]; omega)]
  exact (broadcastInDim_apply ![0] h' x (ix2 p u) (ix1 p) (fun a => by
    match a with
    | ⟨0, _⟩ => show p.val = if n = 1 then 0 else p.val; split <;> omega)).symm

end Cert.LibCol
-- ==== Proof.Bridge.lean ====
/-
  The two programs spell the same network with their own records and two different layouts of a vector.

  Both gather at the same wrapped positions and sum at the same targets, with dimension records of the same content;
  both transpose the weight matrices with the same permutation.  They differ only in how a vector becomes a matrix:
  the kernel program RESHAPES the clipped degrees to a column and each bias to a row, the reference BROADCASTS them
  along a new unit axis.  A row-major reshape of n entries to n×1 (or 1×n) and the broadcast along the new unit axis
  hold the same entries, so the two networks are one function of the argument arrays.
-/
import proofs.«150431_j50714973831907_2_alg».proof.Proof.KHost
import proofs.«150431_j50714973831907_2_alg».proof.Proof.RefValue
import proofs.«150431_j50714973831907_2_alg».proof.Proof.LibRow
import proofs.«150431_j50714973831907_2_alg».proof.Proof.LibCol
import proofs.«150431_j50714973831907_2_alg».proof.Proof.Spec

noncomputable section

namespace Cert.Bridge

open Idealize.ShloMosaic

/-- The same aggregate: gather at the wrapped sources, sum at the targets. -/
theorem agg_eq (a1 a2 : Vec Ideal Cert.KernelIdeal.S600000 .i32) (H : Vec Ideal Cert.KernelIdeal.S100000x128 .f32) :
    Cert.ReferenceIdeal.RefValue.agg a1 a2 H = Cert.KernelIdeal.KHost.agg a1 a2 H := rfl

/-- The same divisor column: the clipped degrees broadcast along a trailing unit axis, or reshaped to a column. -/
theorem degCol_eq (a2 : Vec Ideal Cert.KernelIdeal.S600000 .i32) :
    broadcastInDim Cert.ReferenceIdeal.S100000x1 ![0] Cert.ReferenceIdeal.Gen.bcast_S100000_S100000x1_0 (Cert.ReferenceIdeal.RefValue.degVec a2)
      = Cert.KernelIdeal.KHost.degCol a2 :=
  (Cert.LibCol.reshape_col_eq_broadcast (n := 100000) (Cert.ReferenceIdeal.RefValue.degVec a2) Cert.KernelIdeal.Gen.shapeCasts_S100000_S100000x1
    Cert.ReferenceIdeal.Gen.bcast_S100000_S100000x1_0).symm

/-- The same bias row of 128 entries. -/
theorem row128_eq (b : Vec Ideal Cert.KernelIdeal.S128 .f32) :
    broadcastInDim Cert.ReferenceIdeal.S1x128 ![1] Cert.ReferenceIdeal.Gen.bcast_S128_S1x128_1 b = shapeCast Cert.KernelIdeal.S1x128 b Cert.KernelIdeal.Gen.shapeCasts_S128_S1x128 :=
  (Cert.LibRow.reshape_row_eq_broadcast (n := 128) b Cert.KernelIdeal.Gen.shapeCasts_S128_S1x128 Cert.ReferenceIdeal.Gen.bcast_S128_S1x128_1).symm

/-- The same bias row of 64 entries. -/
theorem row64_eq (b : Vec Ideal Cert.KernelIdeal.S64 .f32) :
    broadcastInDim Cert.ReferenceIdeal.S1x64 ![1] Cert.ReferenceIdeal.Gen.bcast_S64_S1x64_1 b = shapeCast Cert.KernelIdeal.S1x64 b Cert.KernelIdeal.Gen.shapeCasts_S64_S1x64 :=
  (Cert.LibRow.reshape_row_eq_broadcast (n := 64) b Cert.KernelIdeal.Gen.shapeCasts_S64_S1x64 Cert.ReferenceIdeal.Gen.bcast_S64_S1x64_1).symm

/-- The reference's network of the argument arrays is the kernel program's. -/
theorem net_eq (a0 : Vec Ideal Cert.KernelIdeal.S100000x128 .f32) (a1 a2 : Vec Ideal Cert.KernelIdeal.S600000 .i32)
    (a3 a4 : Vec Ideal Cert.KernelIdeal.S128x128 .f32) (a5 : Vec Ideal Cert.KernelIdeal.S128 .f32)
    (a6 a7 : Vec Ideal Cert.KernelIdeal.S128x128 .f32) (a8 : Vec Ideal Cert.KernelIdeal.S128 .f32)
    (a9 a10 : Vec Ideal Cert.KernelIdeal.S64x128 .f32) (a11 : Vec Ideal Cert.KernelIdeal.S64 .f32) :
    Cert.Sage.net (n := 100000) (k := 128) (d := 64) (Cert.ReferenceIdeal.RefValue.agg a1 a2)
        (broadcastInDim Cert.ReferenceIdeal.S100000x1 ![0] Cert.ReferenceIdeal.Gen.bcast_S100000_S100000x1_0 (Cert.ReferenceIdeal.RefValue.degVec a2)) a0
        (transpose Cert.ReferenceIdeal.S128x128 [1, 0] a3 Cert.ReferenceIdeal.Gen.transposes_S128x128_S128x128_1_0)
        (transpose Cert.ReferenceIdeal.S128x128 [1, 0] a4 Cert.ReferenceIdeal.Gen.transposes_S128x128_S128x128_1_0)
        (broadcastInDim Cert.ReferenceIdeal.S1x128 ![1] Cert.ReferenceIdeal.Gen.bcast_S128_S1x128_1 a5)
        (transpose Cert.ReferenceIdeal.S128x128 [1, 0] a6 Cert.ReferenceIdeal.Gen.transposes_S128x128_S128x128_1_0)
        (transpose Cert.ReferenceIdeal.S128x128 [1, 0] a7 Cert.ReferenceIdeal.Gen.transposes_S128x128_S128x128_1_0)
        (broadcastInDim Cert.ReferenceIdeal.S1x128 ![1] Cert.ReferenceIdeal.Gen.bcast_S128_S1x128_1 a8)
        (transpose Cert.ReferenceIdeal.S128x64 [1, 0] a9 Cert.ReferenceIdeal.Gen.transposes_S64x128_S128x64_1_0)
        (transpose Cert.ReferenceIdeal.S128x64 [1, 0] a10 Cert.ReferenceIdeal.Gen.transposes_S64x128_S128x64_1_0)
        (broadcastInDim Cert.ReferenceIdeal.S1x64 ![1] Cert.ReferenceIdeal.Gen.bcast_S64_S1x64_1 a11)
      = Cert.Sage.net (n := 100000) (k := 128) (d := 64) (Cert.KernelIdeal.KHost.agg a1 a2) (Cert.KernelIdeal.KHost.degCol a2) a0
        (transpose Cert.KernelIdeal.S128x128 [1, 0] a3 Cert.KernelIdeal.Gen.transposes_S128x128_S128x128_1_0)
        (transpose Cert.KernelIdeal.S128x128 [1, 0] a4 Cert.KernelIdeal.Gen.transposes_S128x128_S128x128_1_0)
        (shapeCast Cert.KernelIdeal.S1x128 a5 Cert.KernelIdeal.Gen.shapeCasts_S128_S1x128)
        (transpose Cert.KernelIdeal.S128x128 [1, 0] a6 Cert.KernelIdeal.Gen.transposes_S128x128_S128x128_1_0)
        (transpose Cert.KernelIdeal.S128x128 [1, 0] a7 Cert.KernelIdeal.Gen.transposes_S128x128_S128x128_1_0)
        (shapeCast Cert.KernelIdeal.S1x128 a8 Cert.KernelIdeal.Gen.shapeCasts_S128_S1x128)
        (transpose Cert.KernelIdeal.S128x64 [1, 0] a9 Cert.KernelIdeal.Gen.transposes_S64x128_S128x64_1_0)
        (transpose Cert.KernelIdeal.S128x64 [1, 0] a10 Cert.KernelIdeal.Gen.transposes_S64x128_S128x64_1_0)
        (shapeCast Cert.KernelIdeal.S1x64 a11 Cert.KernelIdeal.Gen.shapeCasts_S64_S1x64) := by
  rw [degCol_eq a2, row128_eq a5, row128_eq a8, row64_eq a11]
  rfl

end Cert.Bridge

end
-- ==== Proof.lean ====
/-
  The certificate of a three-layer graph convolution: a Pallas kernel per layer, with the gathers and scatter-adds
  of the neighbour aggregation between the kernels on the host, against a jnp reference.

  Each layer computes, for every node p and output column q,
      Σ_c h(p,c)·Wself(q,c)  +  Σ_c (agg(h)(p,c) / deg(p))·Wneigh(q,c)  +  b(q),
  the first two layers followed by max(·, 0); agg(h) sums the rows of h over the edges that arrive at p, and deg(p) is the
  number of those edges, at least one.  The kernel takes the quotient entry by entry before the product, exactly as the
  reference does, so on the extended reals both programs are the SAME expression: no law beyond reading each program
  entry by entry is needed, and the precondition (finite inputs) is not used.  What differs is the arrangement: the
  kernel works on blocks of 4000 rows, with bf16 roundings that are the identity on extended reals, matrix-unit products
  into zero accumulators where the reference has dot_general, and a degree column and bias rows made by reshapes where
  the reference broadcasts.

  The proof: the kernel program's run names its result as the last boundary's contents (KernelRun), which open layer by
  layer into the network of the launch arrays (KValue, over the per-pipeline block-to-array lemmas of RegionValue and
  the host stretches of KHost); the reference's run term is the same network (RefValue); the two spellings agree
  (Bridge).  The three frames are the generated ones; the idealization rewrote nothing, so `preserves` is trivial.
-/
import proofs.«150431_j50714973831907_2_alg».proof.Defs
import proofs.«150431_j50714973831907_2_alg».proof.Proof.Gen.Kernel
import proofs.«150431_j50714973831907_2_alg».proof.Proof.Gen.KernelIdeal
import proofs.«150431_j50714973831907_2_alg».proof.Proof.Gen.ReferenceIdeal
import proofs.«150431_j50714973831907_2_alg».proof.Proof.Gen.Pre_finite_inputs
import proofs.«150431_j50714973831907_2_alg».proof.Proof.KernelFrameP
import proofs.«150431_j50714973831907_2_alg».proof.Proof.KernelIdealFrameP
import proofs.«150431_j50714973831907_2_alg».proof.Proof.KernelRun
import proofs.«150431_j50714973831907_2_alg».proof.Proof.KValue
import proofs.«150431_j50714973831907_2_alg».proof.Proof.RefValue
import proofs.«150431_j50714973831907_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the three-layer network of the argument arrays in their result array. -/
theorem algebraic : Cert.algebraic_KernelIdeal_ReferenceIdeal := by
  intro m ρ m' ρ' _ hagree
  refine ⟨fun c => Cert.KernelIdeal.KValue.H3 m c, ?_, ?_⟩
  · exact (θ_run Cert.KernelIdeal.defs _ _).mono
      (fun r h c => ⟨(h c).1.trans (Cert.KernelIdeal.KValue.W6_v50 m ρ c), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.RefValue.result_eq m' c, e0, e1, e2, e3, e4, e5, e6, e7, e8, e9, e10, e11]
    exact (Cert.Bridge.net_eq _ _ _ _ _ _ _ _ _ _ _ _).trans (Cert.KernelIdeal.KValue.H3_eq_net m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
